-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16x16x1024 : Shape := ⟨4, ![64, 16, 16, 1024]⟩
abbrev S64x256x768 : Shape := ⟨3, ![64, 256, 768]⟩
abbrev S64x256x1 : Shape := ⟨3, ![64, 256, 1]⟩
abbrev S1x1x1024x512 : Shape := ⟨4, ![1, 1, 1024, 512]⟩
abbrev S512 : Shape := ⟨1, ![512]⟩
abbrev S1x768x512 : Shape := ⟨3, ![1, 768, 512]⟩
abbrev S1x768x1024 : Shape := ⟨3, ![1, 768, 1024]⟩
abbrev S1024 : Shape := ⟨1, ![1024]⟩
abbrev S1x1x1024x1024 : Shape := ⟨4, ![1, 1, 1024, 1024]⟩
abbrev S_ : Shape := ⟨0, ![]⟩

class Facts : Prop where
  bcast_S_S64x16x16x1024 : S_.BroadcastsInDim S64x16x16x1024 (![] : Fin 0 → Fin S64x16x16x1024.rank)
  reducesTo_S64x16x16x1024_S_d0_1_2_3 : S64x16x16x1024.ReducesTo [0, 1, 2, 3] S_
  h_S_ : 0 < S_.numel
  bcast_S_S64x256x768 : S_.BroadcastsInDim S64x256x768 (![] : Fin 0 → Fin S64x256x768.rank)
  reducesTo_S64x256x768_S_d0_1_2 : S64x256x768.ReducesTo [0, 1, 2] S_
  bcast_S_S64x256x1 : S_.BroadcastsInDim S64x256x1 (![] : Fin 0 → Fin S64x256x1.rank)
  reducesTo_S64x256x1_S_d0_1_2 : S64x256x1.ReducesTo [0, 1, 2] S_
  bcast_S_S1x1x1024x512 : S_.BroadcastsInDim S1x1x1024x512 (![] : Fin 0 → Fin S1x1x1024x512.rank)
  reducesTo_S1x1x1024x512_S_d0_1_2_3 : S1x1x1024x512.ReducesTo [0, 1, 2, 3] S_
  bcast_S_S512 : S_.BroadcastsInDim S512 (![] : Fin 0 → Fin S512.rank)
  reducesTo_S512_S_d0 : S512.ReducesTo [0] S_
  bcast_S_S1x768x512 : S_.BroadcastsInDim S1x768x512 (![] : Fin 0 → Fin S1x768x512.rank)
  reducesTo_S1x768x512_S_d0_1_2 : S1x768x512.ReducesTo [0, 1, 2] S_
  bcast_S_S1x768x1024 : S_.BroadcastsInDim S1x768x1024 (![] : Fin 0 → Fin S1x768x1024.rank)
  reducesTo_S1x768x1024_S_d0_1_2 : S1x768x1024.ReducesTo [0, 1, 2] S_
  bcast_S_S1024 : S_.BroadcastsInDim S1024 (![] : Fin 0 → Fin S1024.rank)
  reducesTo_S1024_S_d0 : S1024.ReducesTo [0] S_
  bcast_S_S1x1x1024x1024 : S_.BroadcastsInDim S1x1x1024x1024 (![] : Fin 0 → Fin S1x1x1024x1024.rank)
  reducesTo_S1x1x1024x1024_S_d0_1_2_3 : S1x1x1024x1024.ReducesTo [0, 1, 2, 3] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1x768x1024 .f32) (main_arg8 : FVec F S1024 .f32) (main_arg9 : FVec F S1x1x1024x1024 .f32) (main_arg10 : FVec F S1024 .f32) (main_v33 : IVec S_ 1) : IVec S_ 1 :=
  let main_v34 : FVec F S1x768x1024 .f32 := Host.absf main_arg7
  let main_cst_12 : FVec F S_ .f32 := constant S_ .f32 0x7F800000#32
  let main_v35 : FVec F S1x768x1024 .f32 := broadcastInDim S1x768x1024 ![] bcast_S_S1x768x1024 main_cst_12
  let main_v36 : IVec S1x768x1024 1 := cmpf .olt main_v34 main_v35
  let main_c_13 : IVec S_ 1 := constantI S_ 1 1#1
  let main_v37 : IVec S_ 1 := (fun x v => Host.reduce IntOp.andi x v reducesTo_S1x768x1024_S_d0_1_2 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1x1x1024x1024 .f32 := Host.absf main_arg9
  let main_cst_16 : FVec F S_ .f32 := constant S_ .f32 0x7F800000#32
  let main_v45 : FVec F S1x1x1024x1024 .f32 := broadcastInDim S1x1x1024x1024 ![] bcast_S_S1x1x1024x1024 main_cst_16
  let main_v46 : IVec S1x1x1024x1024 1 := cmpf .olt main_v44 main_v45
  let main_c_17 : IVec S_ 1 := constantI S_ 1 1#1
  let main_v47 : IVec S_ 1 := (fun x v => Host.reduce IntOp.andi x v reducesTo_S1x1x1024x1024_S_d0_1_2_3 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S512 .f32) (main_arg5 : FVec F S1x768x512 .f32) (main_arg6 : FVec F S512 .f32) (main_arg7 : FVec F S1x768x1024 .f32) (main_arg8 : FVec F S1024 .f32) (main_arg9 : FVec F S1x1x1024x1024 .f32) (main_arg10 : FVec F S1024 .f32) (main_v13 : IVec S_ 1) (main_v16 : IVec S1x1x1024x512 1) : IVec S_ 1 :=
  let main_c_5 : IVec S_ 1 := constantI S_ 1 1#1
  let main_v17 : IVec S_ 1 := (fun x v => Host.reduce IntOp.andi x v reducesTo_S1x1x1024x512_S_d0_1_2_3 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x768x512 .f32 := Host.absf main_arg5
  let main_cst_8 : FVec F S_ .f32 := constant S_ .f32 0x7F800000#32
  let main_v25 : FVec F S1x768x512 .f32 := broadcastInDim S1x768x512 ![] bcast_S_S1x768x512 main_cst_8
  let main_v26 : IVec S1x768x512 1 := cmpf .olt main_v24 main_v25
  let main_c_9 : IVec S_ 1 := constantI S_ 1 1#1
  let main_v27 : IVec S_ 1 := (fun x v => Host.reduce IntOp.andi x v reducesTo_S1x768x512_S_d0_1_2 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S64x16x16x1024 .f32) (main_arg1 : FVec F S64x256x768 .f32) (main_arg2 : FVec F S64x256x1 .f32) (main_arg3 : FVec F S1x1x1024x512 .f32) (main_arg4 : FVec F S512 .f32) (main_arg5 : FVec F S1x768x512 .f32) (main_arg6 : FVec F S512 .f32) (main_arg7 : FVec F S1x768x1024 .f32) (main_arg8 : FVec F S1024 .f32) (main_arg9 : FVec F S1x1x1024x1024 .f32) (main_arg10 : FVec F S1024 .f32) : IVec S_ 1 :=
  let main_v0 : FVec F S64x16x16x1024 .f32 := Host.absf main_arg0
  let main_cst : FVec F S_ .f32 := constant S_ .f32 0x7F800000#32
  let main_v1 : FVec F S64x16x16x1024 .f32 := broadcastInDim S64x16x16x1024 ![] bcast_S_S64x16x16x1024 main_cst
  let main_v2 : IVec S64x16x16x1024 1 := cmpf .olt main_v0 main_v1
  let main_c : IVec S_ 1 := constantI S_ 1 1#1
  let main_v3 : IVec S_ 1 := (fun x v => Host.reduce IntOp.andi x v reducesTo_S64x16x16x1024_S_d0_1_2_3 h_S_) main_v2 main_c
  let main_v4 : FVec F S64x256x768 .f32 := Host.absf main_arg1
  let main_cst_0 : FVec F S_ .f32 := constant S_ .f32 0x7F800000#32
  let main_v5 : FVec F S64x256x768 .f32 := broadcastInDim S64x256x768 ![] bcast_S_S64x256x768 main_cst_0
  let main_v6 : IVec S64x256x768 1 := cmpf .olt main_v4 main_v5
  let main_c_1 : IVec S_ 1 := constantI S_ 1 1#1
  let main_v7 : IVec S_ 1 := (fun x v => Host.reduce IntOp.andi x v reducesTo_S64x256x768_S_d0_1_2 h_S_) main_v6 main_c_1
  let main_v8 : IVec S_ 1 := andi main_v3 main_v7
  let main_v9 : FVec F S64x256x1 .f32 := Host.absf main_arg2
  let main_cst_2 : FVec F S_ .f32 := constant S_ .f32 0x7F800000#32
  let main_v10 : FVec F S64x256x1 .f32 := broadcastInDim S64x256x1 ![] bcast_S_S64x256x1 main_cst_2
  let main_v11 : IVec S64x256x1 1 := cmpf .olt main_v9 main_v10
  let main_c_3 : IVec S_ 1 := constantI S_ 1 1#1
  let main_v12 : IVec S_ 1 := (fun x v => Host.reduce IntOp.andi x v reducesTo_S64x256x1_S_d0_1_2 h_S_) main_v11 main_c_3
  let main_v13 : IVec S_ 1 := andi main_v8 main_v12
  let main_v14 : FVec F S1x1x1024x512 .f32 := Host.absf main_arg3
  let main_cst_4 : FVec F S_ .f32 := constant S_ .f32 0x7F800000#32
  let main_v15 : FVec F S1x1x1024x512 .f32 := broadcastInDim S1x1x1024x512 ![] bcast_S_S1x1x1024x512 main_cst_4
  let main_v16 : IVec S1x1x1024x512 1 := cmpf .olt main_v14 main_v15
  fn_part1 (F := F) main_arg4 main_arg5 main_arg6 main_arg7 main_arg8 main_arg9 main_arg10 main_v13 main_v16
-- ==== Kernel.lean ====
abbrev S64x16x16x1024 : Shape := ⟨4, ![64, 16, 16, 1024]⟩
abbrev S64x256x768 : Shape := ⟨3, ![64, 256, 768]⟩
abbrev S64x256x1 : Shape := ⟨3, ![64, 256, 1]⟩
abbrev S1x1x1024x512 : Shape := ⟨4, ![1, 1, 1024, 512]⟩
abbrev S512 : Shape := ⟨1, ![512]⟩
abbrev S1x768x512 : Shape := ⟨3, ![1, 768, 512]⟩
abbrev S1x768x1024 : Shape := ⟨3, ![1, 768, 1024]⟩
abbrev S1024 : Shape := ⟨1, ![1024]⟩
abbrev S1x1x1024x1024 : Shape := ⟨4, ![1, 1, 1024, 1024]⟩
abbrev S64x256x1024 : Shape := ⟨3, ![64, 256, 1024]⟩
abbrev S64x1x256 : Shape := ⟨3, ![64, 1, 256]⟩
abbrev S1024x512 : Shape := ⟨2, ![1024, 512]⟩
abbrev S768x512 : Shape := ⟨2, ![768, 512]⟩
abbrev S768x1024 : Shape := ⟨2, ![768, 1024]⟩
abbrev S1024x1024 : Shape := ⟨2, ![1024, 1024]⟩
abbrev S64x256x256 : Shape := ⟨3, ![64, 256, 256]⟩
abbrev S1x256x1024 : Shape := ⟨3, ![1, 256, 1024]⟩
abbrev S1x256x768 : Shape := ⟨3, ![1, 256, 768]⟩
abbrev S1x1x256 : Shape := ⟨3, ![1, 1, 256]⟩
abbrev S1x256x256 : Shape := ⟨3, ![1, 256, 256]⟩
abbrev S256x1024 : Shape := ⟨2, ![256, 1024]⟩
abbrev S256x768 : Shape := ⟨2, ![256, 768]⟩
abbrev S1x256 : Shape := ⟨2, ![1, 256]⟩
abbrev S256x512 : Shape := ⟨2, ![256, 512]⟩
abbrev S1x512 : Shape := ⟨2, ![1, 512]⟩
abbrev S1x1024 : Shape := ⟨2, ![1, 1024]⟩
abbrev S256x256 : Shape := ⟨2, ![256, 256]⟩
abbrev S256 : Shape := ⟨1, ![256]⟩
abbrev S256x1 : Shape := ⟨2, ![256, 1]⟩

abbrev nBuf : Space → Nat
  | .hbm => 20
  | .vmem => 18
  | .smem => 0
  | _ => 0

abbrev bufTy : (tb : Table) → Fin (tcTables nBuf tb) → BufTy
  | .hbm, ⟨0, _⟩ => ⟨S64x16x16x1024, .f32⟩
  | .hbm, ⟨1, _⟩ => ⟨S64x256x768, .f32⟩
  | .hbm, ⟨2, _⟩ => ⟨S64x256x1, .f32⟩
  | .hbm, ⟨3, _⟩ => ⟨S1x1x1024x512, .f32⟩
  | .hbm, ⟨4, _⟩ => ⟨S512, .f32⟩
  | .hbm, ⟨5, _⟩ => ⟨S1x768x512, .f32⟩
  | .hbm, ⟨6, _⟩ => ⟨S512, .f32⟩
  | .hbm, ⟨7, _⟩ => ⟨S1x768x1024, .f32⟩
  | .hbm, ⟨8, _⟩ => ⟨S1024, .f32⟩
  | .hbm, ⟨9, _⟩ => ⟨S1x1x1024x1024, .f32⟩
  | .hbm, ⟨10, _⟩ => ⟨S1024, .f32⟩
  | .hbm, ⟨11, _⟩ => ⟨S64x256x1024, .f32⟩
  | .hbm, ⟨12, _⟩ => ⟨S64x1x256, .f32⟩
  | .hbm, ⟨13, _⟩ => ⟨S1024x512, .f32⟩
  | .hbm, ⟨14, _⟩ => ⟨S768x512, .f32⟩
  | .hbm, ⟨15, _⟩ => ⟨S768x1024, .f32⟩
  | .hbm, ⟨16, _⟩ => ⟨S1024x1024, .f32⟩
  | .hbm, ⟨17, _⟩ => ⟨S64x256x1024, .f32⟩
  | .hbm, ⟨18, _⟩ => ⟨S64x256x256, .f32⟩
  | .hbm, ⟨19, _⟩ => ⟨S64x16x16x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x768, .f32⟩
  | .local _ .vmem, ⟨3, _⟩ => ⟨S1x256x768, .f32⟩
  | .local _ .vmem, ⟨4, _⟩ => ⟨S1x1x256, .f32⟩
  | .local _ .vmem, ⟨5, _⟩ => ⟨S1x1x256, .f32⟩
  | .local _ .vmem, ⟨6, _⟩ => ⟨S1024x512, .f32⟩
  | .local _ .vmem, ⟨7, _⟩ => ⟨S512, .f32⟩
  | .local _ .vmem, ⟨8, _⟩ => ⟨S768x512, .f32⟩
  | .local _ .vmem, ⟨9, _⟩ => ⟨S512, .f32⟩
  | .local _ .vmem, ⟨10, _⟩ => ⟨S768x1024, .f32⟩
  | .local _ .vmem, ⟨11, _⟩ => ⟨S1024, .f32⟩
  | .local _ .vmem, ⟨12, _⟩ => ⟨S1024x1024, .f32⟩
  | .local _ .vmem, ⟨13, _⟩ => ⟨S1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x256, .f32⟩
  | .local _ .vmem, ⟨17, _⟩ => ⟨S1x256x256, .f32⟩
  | _, _ => ⟨S64x16x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v7 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S64x16x16x1024_S64x256x1024 : S64x16x16x1024.ShapeCasts S64x256x1024
  transposes_S64x256x1_S64x1x256_0_2_1 : S64x256x1.Transposes [0, 2, 1] S64x1x256
  shapeCasts_S1x1x1024x512_S1024x512 : S1x1x1024x512.ShapeCasts S1024x512
  shapeCasts_S1x768x512_S768x512 : S1x768x512.ShapeCasts S768x512
  shapeCasts_S1x768x1024_S768x1024 : S1x768x1024.ShapeCasts S768x1024
  shapeCasts_S1x1x1024x1024_S1024x1024 : S1x1x1024x1024.ShapeCasts S1024x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512_S512_0 : ∀ a, (![0] : Fin 1 → Nat) a + S512.size a ≤ S512.size a
  h_S512 : 0 < S512.numel
  inb_S768x512_S768x512_0_0 : ∀ a, (![0, 0] : Fin 2 → Nat) a + S768x512.size a ≤ S768x512.size a
  h_S768x512 : 0 < S768x512.numel
  shapeCasts_S768x512_S768x512 : S768x512.ShapeCasts S768x512
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1024_S1024_0 : ∀ a, (![0] : Fin 1 → Nat) a + S1024.size a ≤ S1024.size a
  h_S1024 : 0 < S1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  shapeCasts_S512_S1x512 : S512.ShapeCasts S1x512
  broadcasts_S1x512_S256x512 : S1x512.Broadcasts S256x512
  shapeCasts_S1024_S1x1024 : S1024.ShapeCasts S1x1024
  broadcasts_S1x1024_S256x1024 : S1x1024.Broadcasts S256x1024
  reduces_S256x256_S256 : S256x256.Reduces [1] S256
  shapeCasts_S256_S256x1 : S256.ShapeCasts S256x1
  broadcasts_S256x1_S256x256 : S256x1.Broadcasts S256x256
  broadcasts_S1x256_S256x256 : S1x256.Broadcasts S256x256
  shapeCasts_S256x1024_S1x256x1024 : S256x1024.ShapeCasts S1x256x1024
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  shapeCasts_S64x256x1024_S64x16x16x1024 : S64x256x1024.ShapeCasts S64x16x16x1024
  dot_S256x1024_S1024x512_S256x512_1_0_0_1_n_n_wf : DotDims.WF S256x1024 S1024x512 S256x512 [1] [0] [0] [1] [] []
  dot_S256x768_S768x512_S256x512_1_0_0_1_n_n_wf : DotDims.WF S256x768 S768x512 S256x512 [1] [0] [0] [1] [] []
  dot_S256x768_S768x1024_S256x1024_1_0_0_1_n_n_wf : DotDims.WF S256x768 S768x1024 S256x1024 [1] [0] [0] [1] [] []
  dot_S256x512_S256x512_S256x256_1_1_0_0_n_n_wf : DotDims.WF S256x512 S256x512 S256x256 [1] [1] [0] [0] [] []
  dot_S256x256_S256x1024_S256x1024_1_0_0_1_n_n_wf : DotDims.WF S256x256 S256x1024 S256x1024 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S64x256x1024.size a
  hwx0_0 : ∀ i : grid0.Coords, EltTy.bits .f32 = 32 ∨ (Rect.block (s := S64x256x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x768.size a ≤ S64x256x768.size a
  hwx0_1 : ∀ i : grid0.Coords, EltTy.bits .f32 = 32 ∨ (Rect.block (s := S64x256x768) S1x256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S64x1x256.size a
  hwx0_2 : ∀ i : grid0.Coords, EltTy.bits .f32 = 32 ∨ (Rect.block (s := S64x1x256) S1x1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S1024x512.size a
  hwx0_3 : ∀ i : grid0.Coords, EltTy.bits .f32 = 32 ∨ (Rect.block (s := S1024x512) S1024x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x512.size a ≤ S768x512.size a
  hwx0_5 : ∀ i : grid0.Coords, EltTy.bits .f32 = 32 ∨ (Rect.block (s := S768x512) S768x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x1024.size a ≤ S768x1024.size a
  hwx0_7 : ∀ i : grid0.Coords, EltTy.bits .f32 = 32 ∨ (Rect.block (s := S768x1024) S768x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .f32 = 32 ∨ (Rect.block (s := S1024x1024) S1024x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024.size a ≤ S1024.size a
  hwx0_10 : ∀ i : grid0.Coords, EltTy.bits .f32 = 32 ∨ (Rect.block (s := S1024) S1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256x1024.size a ≤ S64x256x1024.size a
  hwx0_11 : ∀ i : grid0.Coords, EltTy.bits .f32 = 32 ∨ (Rect.block (s := S64x256x1024) S1x256x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256x256.size a ≤ S64x256x256.size a
  hwx0_12 : ∀ i : grid0.Coords, EltTy.bits .f32 = 32 ∨ (Rect.block (s := S64x256x256) S1x256x256.size (cc0_transform_12 i) (hinb0_12 i)).WholeWords (EltTy.packing .f32)

variable [Facts₀]

def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf
def dot_S256x768_S768x512_S256x512_1_0_0_1_n_n : DotDims S256x768 S768x512 S256x512 where
  lhsContracting := [1]
  rhsContracting := [0]
  lhsNonContracting := [0]
  rhsNonContracting := [1]
  lhsBatch := []
  rhsBatch := []
  wf := dot_S256x768_S768x512_S256x512_1_0_0_1_n_n_wf
def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf
def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S768x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S768x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6_0) S1x256x1024.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v6_1) S1x256x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S64x16x16x1024 : Shape := ⟨4, ![64, 16, 16, 1024]⟩
abbrev S64x256x768 : Shape := ⟨3, ![64, 256, 768]⟩
abbrev S64x256x1 : Shape := ⟨3, ![64, 256, 1]⟩
abbrev S1x1x1024x512 : Shape := ⟨4, ![1, 1, 1024, 512]⟩
abbrev S512 : Shape := ⟨1, ![512]⟩
abbrev S1x768x512 : Shape := ⟨3, ![1, 768, 512]⟩
abbrev S1x768x1024 : Shape := ⟨3, ![1, 768, 1024]⟩
abbrev S1024 : Shape := ⟨1, ![1024]⟩
abbrev S1x1x1024x1024 : Shape := ⟨4, ![1, 1, 1024, 1024]⟩
abbrev S1024x512 : Shape := ⟨2, ![1024, 512]⟩
abbrev S64x16x16x512 : Shape := ⟨4, ![64, 16, 16, 512]⟩
abbrev S1x1x1x512 : Shape := ⟨4, ![1, 1, 1, 512]⟩
abbrev S768x512 : Shape := ⟨2, ![768, 512]⟩
abbrev S64x256x512 : Shape := ⟨3, ![64, 256, 512]⟩
abbrev S1x1x512 : Shape := ⟨3, ![1, 1, 512]⟩
abbrev S768x1024 : Shape := ⟨2, ![768, 1024]⟩
abbrev S64x256x1024 : Shape := ⟨3, ![64, 256, 1024]⟩
abbrev S1x1x1024 : Shape := ⟨3, ![1, 1, 1024]⟩
abbrev S64x256x256 : Shape := ⟨3, ![64, 256, 256]⟩
abbrev S_ : Shape := ⟨0, ![]⟩
abbrev S64x256 : Shape := ⟨2, ![64, 256]⟩
abbrev S64x1x256 : Shape := ⟨3, ![64, 1, 256]⟩
abbrev S1024x1024 : Shape := ⟨2, ![1024, 1024]⟩
abbrev S1x1x1x1024 : Shape := ⟨4, ![1, 1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S64x16x16x1024, .f32⟩
  | .hbm, ⟨1, _⟩ => ⟨S64x256x768, .f32⟩
  | .hbm, ⟨2, _⟩ => ⟨S64x256x1, .f32⟩
  | .hbm, ⟨3, _⟩ => ⟨S1x1x1024x512, .f32⟩
  | .hbm, ⟨4, _⟩ => ⟨S512, .f32⟩
  | .hbm, ⟨5, _⟩ => ⟨S1x768x512, .f32⟩
  | .hbm, ⟨6, _⟩ => ⟨S512, .f32⟩
  | .hbm, ⟨7, _⟩ => ⟨S1x768x1024, .f32⟩
  | .hbm, ⟨8, _⟩ => ⟨S1024, .f32⟩
  | .hbm, ⟨9, _⟩ => ⟨S1x1x1024x1024, .f32⟩
  | .hbm, ⟨10, _⟩ => ⟨S1024, .f32⟩
  | .hbm, ⟨11, _⟩ => ⟨S1024x512, .f32⟩
  | .hbm, ⟨12, _⟩ => ⟨S64x16x16x512, .f32⟩
  | .hbm, ⟨13, _⟩ => ⟨S1x1x1x512, .f32⟩
  | .hbm, ⟨14, _⟩ => ⟨S64x16x16x512, .f32⟩
  | .hbm, ⟨15, _⟩ => ⟨S64x16x16x512, .f32⟩
  | .hbm, ⟨16, _⟩ => ⟨S768x512, .f32⟩
  | .hbm, ⟨17, _⟩ => ⟨S64x256x512, .f32⟩
  | .hbm, ⟨18, _⟩ => ⟨S1x1x512, .f32⟩
  | .hbm, ⟨19, _⟩ => ⟨S64x256x512, .f32⟩
  | .hbm, ⟨20, _⟩ => ⟨S64x256x512, .f32⟩
  | .hbm, ⟨21, _⟩ => ⟨S768x1024, .f32⟩
  | .hbm, ⟨22, _⟩ => ⟨S64x256x1024, .f32⟩
  | .hbm, ⟨23, _⟩ => ⟨S1x1x1024, .f32⟩
  | .hbm, ⟨24, _⟩ => ⟨S64x256x1024, .f32⟩
  | .hbm, ⟨25, _⟩ => ⟨S64x256x1024, .f32⟩
  | .hbm, ⟨26, _⟩ => ⟨S64x256x512, .f32⟩
  | .hbm, ⟨27, _⟩ => ⟨S64x256x256, .f32⟩
  | .hbm, ⟨28, _⟩ => ⟨S_, .f32⟩
  | .hbm, ⟨29, _⟩ => ⟨S64x256, .f32⟩
  | .hbm, ⟨30, _⟩ => ⟨S_, .f32⟩
  | .hbm, ⟨31, _⟩ => ⟨S64x256, .f32⟩
  | .hbm, ⟨32, _⟩ => ⟨S64x256, .f32⟩
  | .hbm, ⟨33, _⟩ => ⟨S64x256x1, .f32⟩
  | .hbm, ⟨34, _⟩ => ⟨S64x256x256, .f32⟩
  | .hbm, ⟨35, _⟩ => ⟨S64x256x256, .f32⟩
  | .hbm, ⟨36, _⟩ => ⟨S64x256x256, .f32⟩
  | .hbm, ⟨37, _⟩ => ⟨S_, .f32⟩
  | .hbm, ⟨38, _⟩ => ⟨S64x256, .f32⟩
  | .hbm, ⟨39, _⟩ => ⟨S64x256x1, .f32⟩
  | .hbm, ⟨40, _⟩ => ⟨S64x256x256, .f32⟩
  | .hbm, ⟨41, _⟩ => ⟨S64x256x256, .f32⟩
  | .hbm, ⟨42, _⟩ => ⟨S64x1x256, .f32⟩
  | .hbm, ⟨43, _⟩ => ⟨S64x256x256, .f32⟩
  | .hbm, ⟨44, _⟩ => ⟨S64x256x256, .f32⟩
  | .hbm, ⟨45, _⟩ => ⟨S64x256x1024, .f32⟩
  | .hbm, ⟨46, _⟩ => ⟨S64x16x16x1024, .f32⟩
  | .hbm, ⟨47, _⟩ => ⟨S1024x1024, .f32⟩
  | .hbm, ⟨48, _⟩ => ⟨S64x16x16x1024, .f32⟩
  | .hbm, ⟨49, _⟩ => ⟨S1x1x1x1024, .f32⟩
  | .hbm, ⟨50, _⟩ => ⟨S64x16x16x1024, .f32⟩
  | .hbm, ⟨51, _⟩ => ⟨S64x16x16x1024, .f32⟩
  | _, _ => ⟨S64x16x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_cst_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_1 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  shapeCasts_S1x1x1024x512_S1024x512 : S1x1x1024x512.ShapeCasts S1024x512
  bcast_S512_S1x1x1x512_3 : S512.BroadcastsInDim S1x1x1x512 (![3] : Fin 1 → Fin S1x1x1x512.rank)
  bcast_S1x1x1x512_S64x16x16x512_0_1_2_3 : S1x1x1x512.BroadcastsInDim S64x16x16x512 (![0, 1, 2, 3] : Fin 4 → Fin S64x16x16x512.rank)
  shapeCasts_S1x768x512_S768x512 : S1x768x512.ShapeCasts S768x512
  bcast_S512_S1x1x512_2 : S512.BroadcastsInDim S1x1x512 (![2] : Fin 1 → Fin S1x1x512.rank)
  bcast_S1x1x512_S64x256x512_0_1_2 : S1x1x512.BroadcastsInDim S64x256x512 (![0, 1, 2] : Fin 3 → Fin S64x256x512.rank)
  shapeCasts_S1x768x1024_S768x1024 : S1x768x1024.ShapeCasts S768x1024
  bcast_S1024_S1x1x1024_2 : S1024.BroadcastsInDim S1x1x1024 (![2] : Fin 1 → Fin S1x1x1024.rank)
  bcast_S1x1x1024_S64x256x1024_0_1_2 : S1x1x1024.BroadcastsInDim S64x256x1024 (![0, 1, 2] : Fin 3 → Fin S64x256x1024.rank)
  shapeCasts_S64x16x16x512_S64x256x512 : S64x16x16x512.ShapeCasts S64x256x512
  reducesTo_S64x256x256_S64x256_d2 : S64x256x256.ReducesTo [2] S64x256
  h_S_ : 0 < S_.numel
  bcast_S_S64x256 : S_.BroadcastsInDim S64x256 (![] : Fin 0 → Fin S64x256.rank)
  bcast_S64x256_S64x256x1_0_1 : S64x256.BroadcastsInDim S64x256x1 (![0, 1] : Fin 2 → Fin S64x256x1.rank)
  bcast_S64x256x1_S64x256x256_0_1_2 : S64x256x1.BroadcastsInDim S64x256x256 (![0, 1, 2] : Fin 3 → Fin S64x256x256.rank)
  transposes_S64x256x1_S64x1x256_0_2_1 : S64x256x1.Transposes [0, 2, 1] S64x1x256
  bcast_S64x1x256_S64x256x256_0_1_2 : S64x1x256.BroadcastsInDim S64x256x256 (![0, 1, 2] : Fin 3 → Fin S64x256x256.rank)
  shapeCasts_S64x256x1024_S64x16x16x1024 : S64x256x1024.ShapeCasts S64x16x16x1024
  shapeCasts_S1x1x1024x1024_S1024x1024 : S1x1x1024x1024.ShapeCasts S1024x1024
  bcast_S1024_S1x1x1x1024_3 : S1024.BroadcastsInDim S1x1x1x1024 (![3] : Fin 1 → Fin S1x1x1x1024.rank)
  bcast_S1x1x1x1024_S64x16x16x1024_0_1_2_3 : S1x1x1x1024.BroadcastsInDim S64x16x16x1024 (![0, 1, 2, 3] : Fin 4 → Fin S64x16x16x1024.rank)
  dot_S64x16x16x1024_S1024x512_S64x16x16x512_3_0_012_1_n_n_wf : DotDims.WF S64x16x16x1024 S1024x512 S64x16x16x512 [3] [0] [0, 1, 2] [1] [] []
  dot_S64x256x768_S768x512_S64x256x512_2_0_01_1_n_n_wf : DotDims.WF S64x256x768 S768x512 S64x256x512 [2] [0] [0, 1] [1] [] []
  dot_S64x256x768_S768x1024_S64x256x1024_2_0_01_1_n_n_wf : DotDims.WF S64x256x768 S768x1024 S64x256x1024 [2] [0] [0, 1] [1] [] []
  dot_S64x256x512_S64x256x512_S64x256x256_2_2_1_1_0_0_wf : DotDims.WF S64x256x512 S64x256x512 S64x256x256 [2] [2] [1] [1] [0] [0]
  dot_S64x256x256_S64x256x1024_S64x256x1024_2_1_1_2_0_0_wf : DotDims.WF S64x256x256 S64x256x1024 S64x256x1024 [2] [1] [1] [2] [0] [0]
  dot_S64x16x16x1024_S1024x1024_S64x16x16x1024_3_0_012_1_n_n_wf : DotDims.WF S64x16x16x1024 S1024x1024 S64x16x16x1024 [3] [0] [0, 1, 2] [1] [] []

variable [Facts₀]

def dot_S64x16x16x1024_S1024x512_S64x16x16x512_3_0_012_1_n_n : DotDims S64x16x16x1024 S1024x512 S64x16x16x512 where
  lhsContracting := [3]
  rhsContracting := [0]
  lhsNonContracting := [0, 1, 2]
  rhsNonContracting := [1]
  lhsBatch := []
  rhsBatch := []
  wf := dot_S64x16x16x1024_S1024x512_S64x16x16x512_3_0_012_1_n_n_wf
def dot_S64x256x768_S768x512_S64x256x512_2_0_01_1_n_n : DotDims S64x256x768 S768x512 S64x256x512 where
  lhsContracting := [2]
  rhsContracting := [0]
  lhsNonContracting := [0, 1]
  rhsNonContracting := [1]
  lhsBatch := []
  rhsBatch := []
  wf := dot_S64x256x768_S768x512_S64x256x512_2_0_01_1_n_n_wf
def dot_S64x256x768_S768x1024_S64x256x1024_2_0_01_1_n_n : DotDims S64x256x768 S768x1024 S64x256x1024 where
  lhsContracting := [2]
  rhsContracting := [0]
  lhsNonContracting := [0, 1]
  rhsNonContracting := [1]
  lhsBatch := []
  rhsBatch := []
  wf := dot_S64x256x768_S768x1024_S64x256x1024_2_0_01_1_n_n_wf
def dot_S64x256x512_S64x256x512_S64x256x256_2_2_1_1_0_0 : DotDims S64x256x512 S64x256x512 S64x256x256 where
  lhsContracting := [2]
  rhsContracting := [2]
  lhsNonContracting := [1]
  rhsNonContracting := [1]
  lhsBatch := [0]
  rhsBatch := [0]
  wf := dot_S64x256x512_S64x256x512_S64x256x256_2_2_1_1_0_0_wf
def dot_S64x256x256_S64x256x1024_S64x256x1024_2_1_1_2_0_0 : DotDims S64x256x256 S64x256x1024 S64x256x1024 where
  lhsContracting := [2]
  rhsContracting := [1]
  lhsNonContracting := [1]
  rhsNonContracting := [2]
  lhsBatch := [0]
  rhsBatch := [0]
  wf := dot_S64x256x256_S64x256x1024_S64x256x1024_2_1_1_2_0_0_wf
def dot_S64x16x16x1024_S1024x1024_S64x16x16x1024_3_0_012_1_n_n : DotDims S64x16x16x1024 S1024x1024 S64x16x16x1024 where
  lhsContracting := [3]
  rhsContracting := [0]
  lhsNonContracting := [0, 1, 2]
  rhsNonContracting := [1]
  lhsBatch := []
  rhsBatch := []
  wf := dot_S64x16x16x1024_S1024x1024_S64x16x16x1024_3_0_012_1_n_n_wf

class Facts : Prop extends Facts₀ where

variable [Facts]
-- ==== Proof.Spec.lean ====
/-
  One batch of masked cross-attention, on the extended reals, as functions of its operands read by coordinates.

  An image block `x1` (rows × image channels) is projected to queries, a text block `x2` (tokens × text channels)
  to keys and to values, each projection a matrix product plus a bias broadcast along the rows. A query row's scores
  against every key are turned into weights by a softmax taken along the tokens — each score less the row's
  maximum, exponentiated, divided by the row's sum of those exponentials — and every weight is then multiplied by
  its token's mask entry, with no renormalisation. The weighted sum of the values is projected once more.

  Nothing here is rearranged: every sum runs over one coordinate in its natural order, so the two programs meet these
  functions by reading their operations at an index and no law of the extended reals beyond `0 + x = x` is used.
-/
import Idealize.ShloMosaic.PureOps.Ideal
import Idealize.ShloMosaic.Lib.ValueIdx

noncomputable section

open scoped BigOperators

namespace Cert.Attn

open Idealize.ShloMosaic Idealize.ShloMosaic.ValueIdx

/-- The value of the f32 word of −∞, from which both programs start a row's maximum. -/
abbrev negInf : EReal := Ideal.ofBits .f32 0xFF800000#32

/-- A projection: row `r` of `X` against column `c` of `W`, plus the bias of column `c`. -/
def proj {R K C : ℕ} (X : Fin R → Fin K → EReal) (W : Fin K → Fin C → EReal) (b : Fin C → EReal)
    (r : Fin R) (c : Fin C) : EReal :=
  (∑ k : Fin K, X r k * W k c) + b c

/-- A product of two matrices, no bias. -/
def mm {R K C : ℕ} (X : Fin R → Fin K → EReal) (W : Fin K → Fin C → EReal) (r : Fin R) (c : Fin C) : EReal :=
  ∑ k : Fin K, X r k * W k c

/-- The score of query row `r` against key row `n`: both contracted along their feature coordinate. -/
def scores {R N D : ℕ} (q : Fin R → Fin D → EReal) (k : Fin N → Fin D → EReal) (r : Fin R) (n : Fin N) : EReal :=
  ∑ d : Fin D, q r d * k n d

/-- The maximum of row `r`, folded from −∞ and then once more compared with −∞ (as both programs spell it). -/
def rowMax {R N : ℕ} (s : Fin R → Fin N → EReal) (r : Fin R) : EReal :=
  max negInf ((Finset.univ : Finset (Fin N)).fold max negInf (fun n => s r n))

/-- A score less its row's maximum, exponentiated. -/
def expo {R N : ℕ} (s : Fin R → Fin N → EReal) (r : Fin R) (n : Fin N) : EReal :=
  Ideal.exp (s r n - rowMax s r)

/-- The masked softmax weight of token `n` for query row `r`. -/
def weights {R N : ℕ} (s : Fin R → Fin N → EReal) (mask : Fin N → EReal) (r : Fin R) (n : Fin N) : EReal :=
  Ideal.div (expo s r n) (∑ n' : Fin N, expo s r n') * mask n

/-- The attention weights of one batch: the masked softmax of the projected queries against the projected keys. -/
def beta {R N C1 C2 D : ℕ} (x1 : Fin R → Fin C1 → EReal) (x2 : Fin N → Fin C2 → EReal) (mask : Fin N → EReal)
    (kq : Fin C1 → Fin D → EReal) (bq : Fin D → EReal) (kk : Fin C2 → Fin D → EReal) (bk : Fin D → EReal) :
    Fin R → Fin N → EReal :=
  weights (scores (proj x1 kq bq) (proj x2 kk bk)) mask

/-- The attended output of one batch: the weights against the projected values, projected by `ko` plus `bo`. -/
def out {R N C1 C2 D E : ℕ} (x1 : Fin R → Fin C1 → EReal) (x2 : Fin N → Fin C2 → EReal) (mask : Fin N → EReal)
    (kq : Fin C1 → Fin D → EReal) (bq : Fin D → EReal) (kk : Fin C2 → Fin D → EReal) (bk : Fin D → EReal)
    (kv : Fin C2 → Fin C1 → EReal) (bv : Fin C1 → EReal) (ko : Fin C1 → Fin E → EReal) (bo : Fin E → EReal) :
    Fin R → Fin E → EReal :=
  proj (mm (beta x1 x2 mask kq bq kk bk) (proj x2 kv bv)) ko bo

/-! ## The whole arrays

  The image array is `[64, 16, 16, 1024]`; its batch `b` is read as 256 rows, row `r` the pixel
  `(r / 16, r % 16)`. The weight arrays carry leading unit axes. -/

/-- Row `r` of 256 as a pixel row. -/
abbrev hi (r : Fin 256) : Fin 16 := ⟨r.val / 16, by have := r.isLt; omega⟩
/-- Row `r` of 256 as a pixel column. -/
abbrev lo (r : Fin 256) : Fin 16 := ⟨r.val % 16, by omega⟩
/-- Pixel `(h, w)` as a row of 256. -/
abbrev row (h w : Fin 16) : Fin 256 := ⟨h.val * 16 + w.val, by have := h.isLt; have := w.isLt; omega⟩

/-- The attention weights of the whole input, `[64, 256, 256]`. -/
def Gbeta (X0 : (⟨4, ![64, 16, 16, 1024]⟩ : Shape).Idx → EReal) (X1 : (⟨3, ![64, 256, 768]⟩ : Shape).Idx → EReal)
    (X2 : (⟨3, ![64, 256, 1]⟩ : Shape).Idx → EReal) (X3 : (⟨4, ![1, 1, 1024, 512]⟩ : Shape).Idx → EReal)
    (X4 : (⟨1, ![512]⟩ : Shape).Idx → EReal) (X5 : (⟨3, ![1, 768, 512]⟩ : Shape).Idx → EReal)
    (X6 : (⟨1, ![512]⟩ : Shape).Idx → EReal) (b : Fin 64) : Fin 256 → Fin 256 → EReal :=
  beta (fun r c => X0 (ix4 b (hi r) (lo r) c)) (fun n c => X1 (ix3 b n c)) (fun n => X2 (ix3 b n (0 : Fin 1)))
    (fun c d => X3 (ix4 (0 : Fin 1) (0 : Fin 1) c d)) (fun d => X4 (ix1 d))
    (fun c d => X5 (ix3 (0 : Fin 1) c d)) (fun d => X6 (ix1 d))

/-- The attended output of the whole input, by batch and row of 256: `[64, 256, 1024]`. -/
def Gout (X0 : (⟨4, ![64, 16, 16, 1024]⟩ : Shape).Idx → EReal) (X1 : (⟨3, ![64, 256, 768]⟩ : Shape).Idx → EReal)
    (X2 : (⟨3, ![64, 256, 1]⟩ : Shape).Idx → EReal) (X3 : (⟨4, ![1, 1, 1024, 512]⟩ : Shape).Idx → EReal)
    (X4 : (⟨1, ![512]⟩ : Shape).Idx → EReal) (X5 : (⟨3, ![1, 768, 512]⟩ : Shape).Idx → EReal)
    (X6 : (⟨1, ![512]⟩ : Shape).Idx → EReal) (X7 : (⟨3, ![1, 768, 1024]⟩ : Shape).Idx → EReal)
    (X8 : (⟨1, ![1024]⟩ : Shape).Idx → EReal) (X9 : (⟨4, ![1, 1, 1024, 1024]⟩ : Shape).Idx → EReal)
    (X10 : (⟨1, ![1024]⟩ : Shape).Idx → EReal) (b : Fin 64) : Fin 256 → Fin 1024 → EReal :=
  out (fun r c => X0 (ix4 b (hi r) (lo r) c)) (fun n c => X1 (ix3 b n c)) (fun n => X2 (ix3 b n (0 : Fin 1)))
    (fun c d => X3 (ix4 (0 : Fin 1) (0 : Fin 1) c d)) (fun d => X4 (ix1 d))
    (fun c d => X5 (ix3 (0 : Fin 1) c d)) (fun d => X6 (ix1 d))
    (fun c d => X7 (ix3 (0 : Fin 1) c d)) (fun d => X8 (ix1 d))
    (fun c d => X9 (ix4 (0 : Fin 1) (0 : Fin 1) c d)) (fun d => X10 (ix1 d))

end Cert.Attn

end
-- ==== Proof.KBlocks.lean ====
/-
  The kernel's windows read by coordinates.

  The grid has one axis of 64 points, one per batch. At point `t` the image, text and mask windows hold batch `t`
  of their arrays and the two result windows are written back to batch `t` of theirs; the eight weight and bias windows
  hold their whole arrays at every point. The arrays the region finds are the arguments themselves, or the host's
  re-layouts of them made before the region: the image array flattened from `[64, 16, 16, 1024]` to `[64, 256, 1024]`
  (row `r` is pixel `(r / 16, r % 16)`), the mask's last two axes exchanged, and the weights' leading unit axes dropped.
  So every entry of every block is one entry of an argument array, named here; and the result windows' blocks, one
  per batch, cover their arrays.
-/
import proofs.«150338_j26980984553970_1_alg».proof.Proof.Gen.KernelIdeal.Frame
import proofs.«150338_j26980984553970_1_alg».proof.Proof.Spec
import Idealize.ShloMosaic.Lib.Pipeline.Value
import Idealize.ShloMosaic.Lib.ValueIdx
import Idealize.ShloMosaic.Lib.StableHlo.Run

noncomputable section

namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The grid point as a batch number. -/
abbrev bt (t : Fin cfg0.N) : Fin 64 := Fin.cast N_0 t
/-- The batch number as a grid point. -/
abbrev pt (b : Fin 64) : Fin cfg0.N := Fin.cast N_0.symm b

/-- The printed index maps, decided over the grid: the batched windows sit at block `(t, 0, 0)`, the others at the
    origin. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 1) = 0)
    ∧ (win0_5.index t (0 : Fin 2) = 0 ∧ win0_5.index t (1 : Fin 2) = 0)
    ∧ (win0_6.index t (0 : Fin 1) = 0)
    ∧ (win0_7.index t (0 : Fin 2) = 0 ∧ win0_7.index t (1 : Fin 2) = 0)
    ∧ (win0_8.index t (0 : Fin 1) = 0)
    ∧ (win0_9.index t (0 : Fin 2) = 0 ∧ win0_9.index t (1 : Fin 2) = 0)
    ∧ (win0_10.index t (0 : Fin 1) = 0)
    ∧ (win0_11.index t (0 : Fin 3) = t.val ∧ win0_11.index t (1 : Fin 3) = 0 ∧ win0_11.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-! ## The arrays the host prepares before the region -/

/-- The image array as the region finds it: the argument flattened to 256 rows per batch. -/
theorem V_v0 (c : Dev nD) :
    @Eq (FVec Ideal S64x256x1024 .f32) (V m c main_v0)
      (shapeCast S64x256x1024 (m ((c : Thread nD τ).loc main_arg0)) shapeCasts_S64x16x16x1024_S64x256x1024) := by
  show StableHlo.after hostOps0 (fun b => m (c, b)) (Proc.devRef .tc main_v0) = _
  after_results
  rfl
/-- The mask array as the region finds it: the argument with its last two axes exchanged. -/
theorem V_v1 (c : Dev nD) :
    @Eq (FVec Ideal S64x1x256 .f32) (V m c main_v1)
      (transpose S64x1x256 [0, 2, 1] (m ((c : Thread nD τ).loc main_arg2)) transposes_S64x256x1_S64x1x256_0_2_1) := by
  show StableHlo.after hostOps0 (fun b => m (c, b)) (Proc.devRef .tc main_v1) = _
  after_results
/-- The query weights as the region finds them: the argument without its unit axes. -/
theorem V_v2 (c : Dev nD) :
    @Eq (FVec Ideal S1024x512 .f32) (V m c main_v2)
      (shapeCast S1024x512 (m ((c : Thread nD τ).loc main_arg3)) shapeCasts_S1x1x1024x512_S1024x512) := by
  show StableHlo.after hostOps0 (fun b => m (c, b)) (Proc.devRef .tc main_v2) = _
  after_results
  rfl
/-- The key weights as the region finds them. -/
theorem V_v3 (c : Dev nD) :
    @Eq (FVec Ideal S768x512 .f32) (V m c main_v3)
      (shapeCast S768x512 (m ((c : Thread nD τ).loc main_arg5)) shapeCasts_S1x768x512_S768x512) := by
  show StableHlo.after hostOps0 (fun b => m (c, b)) (Proc.devRef .tc main_v3) = _
  after_results
  rfl
/-- The value weights as the region finds them. -/
theorem V_v4 (c : Dev nD) :
    @Eq (FVec Ideal S768x1024 .f32) (V m c main_v4)
      (shapeCast S768x1024 (m ((c : Thread nD τ).loc main_arg7)) shapeCasts_S1x768x1024_S768x1024) := by
  show StableHlo.after hostOps0 (fun b => m (c, b)) (Proc.devRef .tc main_v4) = _
  after_results
  rfl
/-- The output weights as the region finds them. -/
theorem V_v5 (c : Dev nD) :
    @Eq (FVec Ideal S1024x1024 .f32) (V m c main_v5)
      (shapeCast S1024x1024 (m ((c : Thread nD τ).loc main_arg9)) shapeCasts_S1x1x1024x1024_S1024x1024) := by
  show StableHlo.after hostOps0 (fun b => m (c, b)) (Proc.devRef .tc main_v5) = _
  after_results
  rfl

/-! ## The re-layouts at an index -/

/-- Row `r` of batch `b` of the flattened image array is pixel `(r / 16, r % 16)` of that batch. -/
theorem flat_image_apply (X : FVec Ideal S64x16x16x1024 .f32) (b : Fin 64) (r : Fin 256) (k : Fin 1024) :
    shapeCast S64x256x1024 X shapeCasts_S64x16x16x1024_S64x256x1024 (ix3 b r k)
      = X (ix4 b (Cert.Attn.hi r) (Cert.Attn.lo r) k) :=
  shapeCast_apply X shapeCasts_S64x16x16x1024_S64x256x1024 (ix3 b r k) (ix4 b (Cert.Attn.hi r) (Cert.Attn.lo r) k) (by
    rewrite [Shape.rowMajor_val_four, Shape.rowMajor_val_three]
    have hr : r.val < 256 := r.isLt
    show ((b.val * 16 + r.val / 16) * 16 + r.val % 16) * 1024 + k.val = (b.val * 256 + r.val) * 1024 + k.val
    omega)

/-- Dropping two leading unit axes of a `[1, 1, K, D]` array. -/
theorem drop2_apply {K D : ℕ} (X : FVec Ideal (⟨4, ![1, 1, K, D]⟩ : Shape) .f32)
    (h : (⟨4, ![1, 1, K, D]⟩ : Shape).ShapeCasts ⟨2, ![K, D]⟩) (k : Fin K) (d : Fin D) :
    shapeCast ⟨2, ![K, D]⟩ X h (ix2 k d) = X (ix4 (0 : Fin 1) (0 : Fin 1) k d) :=
  shapeCast_apply X h (ix2 k d) (ix4 (0 : Fin 1) (0 : Fin 1) k d) (by
    rewrite [Shape.rowMajor_val_four, Shape.rowMajor_val_two]
    show ((0 * 1 + 0) * K + k.val) * D + d.val = k.val * D + d.val
    simp)

/-- Dropping the leading unit axis of a `[1, K, D]` array. -/
theorem drop1_apply {K D : ℕ} (X : FVec Ideal (⟨3, ![1, K, D]⟩ : Shape) .f32)
    (h : (⟨3, ![1, K, D]⟩ : Shape).ShapeCasts ⟨2, ![K, D]⟩) (k : Fin K) (d : Fin D) :
    shapeCast ⟨2, ![K, D]⟩ X h (ix2 k d) = X (ix3 (0 : Fin 1) k d) :=
  shapeCast_apply X h (ix2 k d) (ix3 (0 : Fin 1) k d) (by
    rewrite [Shape.rowMajor_val_three, Shape.rowMajor_val_two]
    show (0 * K + k.val) * D + d.val = k.val * D + d.val
    simp)

/-- The exchanged mask at `(b, 0, n)` is the mask at `(b, n, 0)`. -/
theorem mask_apply (X : FVec Ideal S64x256x1 .f32) (b : Fin 64) (n : Fin 256) :
    transpose S64x1x256 [0, 2, 1] X transposes_S64x256x1_S64x1x256_0_2_1 (ix3 b (0 : Fin 1) n) = X (ix3 b n (0 : Fin 1)) :=
  transpose_apply [0, 2, 1] X transposes_S64x256x1_S64x1x256_0_2_1 (ix3 b (0 : Fin 1) n) (ix3 b n (0 : Fin 1)) (fun a => match a with
    | ⟨0, _⟩ => rfl
    | ⟨1, _⟩ => rfl
    | ⟨2, _⟩ => rfl)

/-! ## Each window's block at a point, entry by entry -/

theorem blk0 (c : Dev nD) (t : Fin cfg0.N) (r : Fin 256) (k : Fin 1024) :
    iblk m c 0 t (ix3 (0 : Fin 1) r k) = m ((c : Thread nD τ).loc main_arg0) (ix4 (bt t) (Cert.Attn.hi r) (Cert.Attn.lo r) k) := by
  show V m c main_v0 (((cfg0.win 0).blk t).view.emb (ix3 (0 : Fin 1) r k)) = _
  rw [V_v0]
  obtain ⟨⟨e0, e1, e2⟩, -⟩ := idx_facts t
  refine Eq.trans (congrArg _ (funext fun a => Fin.ext ?_)) (flat_image_apply _ (bt t) r k)
  match a with
  | ⟨0, _⟩ => show win0_0.index t (0 : Fin 3) * 1 + 1 * 0 = t.val; omega
  | ⟨1, _⟩ => show win0_0.index t (1 : Fin 3) * 256 + 1 * r.val = r.val; omega
  | ⟨2, _⟩ => show win0_0.index t (2 : Fin 3) * 1024 + 1 * k.val = k.val; omega

theorem blk1 (c : Dev nD) (t : Fin cfg0.N) (n : Fin 256) (k : Fin 768) :
    iblk m c 1 t (ix3 (0 : Fin 1) n k) = m ((c : Thread nD τ).loc main_arg1) (ix3 (bt t) n k) := by
  show V m c main_arg1 (((cfg0.win 1).blk t).view.emb (ix3 (0 : Fin 1) n k)) = _
  rw [V_main_arg1]
  obtain ⟨-, ⟨e0, e1, e2⟩, -⟩ := idx_facts t
  refine congrArg _ (funext fun a => Fin.ext ?_)
  match a with
  | ⟨0, _⟩ => show win0_1.index t (0 : Fin 3) * 1 + 1 * 0 = t.val; omega
  | ⟨1, _⟩ => show win0_1.index t (1 : Fin 3) * 256 + 1 * n.val = n.val; omega
  | ⟨2, _⟩ => show win0_1.index t (2 : Fin 3) * 768 + 1 * k.val = k.val; omega

theorem blk2 (c : Dev nD) (t : Fin cfg0.N) (n : Fin 256) :
    iblk m c 2 t (ix3 (0 : Fin 1) (0 : Fin 1) n) = m ((c : Thread nD τ).loc main_arg2) (ix3 (bt t) n (0 : Fin 1)) := by
  show V m c main_v1 (((cfg0.win 2).blk t).view.emb (ix3 (0 : Fin 1) (0 : Fin 1) n)) = _
  rw [V_v1]
  obtain ⟨-, -, ⟨e0, e1, e2⟩, -⟩ := idx_facts t
  refine Eq.trans (congrArg _ (funext fun a => Fin.ext ?_)) (mask_apply _ (bt t) n)
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 256 + 1 * n.val = n.val; omega

theorem blk3 (c : Dev nD) (t : Fin cfg0.N) (k : Fin 1024) (d : Fin 512) :
    iblk m c 3 t (ix2 k d) = m ((c : Thread nD τ).loc main_arg3) (ix4 (0 : Fin 1) (0 : Fin 1) k d) := by
  show V m c main_v2 (((cfg0.win 3).blk t).view.emb (ix2 k d)) = _
  rw [V_v2]
  obtain ⟨-, -, -, ⟨e0, e1⟩, -⟩ := idx_facts t
  refine Eq.trans (congrArg _ (funext fun a => Fin.ext ?_)) (drop2_apply _ _ k d)
  match a with
  | ⟨0, _⟩ => show win0_3.index t (0 : Fin 2) * 1024 + 1 * k.val = k.val; omega
  | ⟨1, _⟩ => show win0_3.index t (1 : Fin 2) * 512 + 1 * d.val = d.val; omega

theorem blk4 (c : Dev nD) (t : Fin cfg0.N) (d : Fin 512) :
    iblk m c 4 t (ix1 d) = m ((c : Thread nD τ).loc main_arg4) (ix1 d) := by
  show V m c main_arg4 (((cfg0.win 4).blk t).view.emb (ix1 d)) = _
  rw [V_main_arg4]
  obtain ⟨-, -, -, -, e0, -⟩ := idx_facts t
  refine congrArg _ (funext fun a => Fin.ext ?_)
  match a with
  | ⟨0, _⟩ => show win0_4.index t (0 : Fin 1) * 512 + 1 * d.val = d.val; omega

theorem blk5 (c : Dev nD) (t : Fin cfg0.N) (k : Fin 768) (d : Fin 512) :
    iblk m c 5 t (ix2 k d) = m ((c : Thread nD τ).loc main_arg5) (ix3 (0 : Fin 1) k d) := by
  show V m c main_v3 (((cfg0.win 5).blk t).view.emb (ix2 k d)) = _
  rw [V_v3]
  obtain ⟨-, -, -, -, -, ⟨e0, e1⟩, -⟩ := idx_facts t
  refine Eq.trans (congrArg _ (funext fun a => Fin.ext ?_)) (drop1_apply _ _ k d)
  match a with
  | ⟨0, _⟩ => show win0_5.index t (0 : Fin 2) * 768 + 1 * k.val = k.val; omega
  | ⟨1, _⟩ => show win0_5.index t (1 : Fin 2) * 512 + 1 * d.val = d.val; omega

theorem blk6 (c : Dev nD) (t : Fin cfg0.N) (d : Fin 512) :
    iblk m c 6 t (ix1 d) = m ((c : Thread nD τ).loc main_arg6) (ix1 d) := by
  show V m c main_arg6 (((cfg0.win 6).blk t).view.emb (ix1 d)) = _
  rw [V_main_arg6]
  obtain ⟨-, -, -, -, -, -, e0, -⟩ := idx_facts t
  refine congrArg _ (funext fun a => Fin.ext ?_)
  match a with
  | ⟨0, _⟩ => show win0_6.index t (0 : Fin 1) * 512 + 1 * d.val = d.val; omega

theorem blk7 (c : Dev nD) (t : Fin cfg0.N) (k : Fin 768) (d : Fin 1024) :
    iblk m c 7 t (ix2 k d) = m ((c : Thread nD τ).loc main_arg7) (ix3 (0 : Fin 1) k d) := by
  show V m c main_v4 (((cfg0.win 7).blk t).view.emb (ix2 k d)) = _
  rw [V_v4]
  obtain ⟨-, -, -, -, -, -, -, ⟨e0, e1⟩, -⟩ := idx_facts t
  refine Eq.trans (congrArg _ (funext fun a => Fin.ext ?_)) (drop1_apply _ _ k d)
  match a with
  | ⟨0, _⟩ => show win0_7.index t (0 : Fin 2) * 768 + 1 * k.val = k.val; omega
  | ⟨1, _⟩ => show win0_7.index t (1 : Fin 2) * 1024 + 1 * d.val = d.val; omega

theorem blk8 (c : Dev nD) (t : Fin cfg0.N) (d : Fin 1024) :
    iblk m c 8 t (ix1 d) = m ((c : Thread nD τ).loc main_arg8) (ix1 d) := by
  show V m c main_arg8 (((cfg0.win 8).blk t).view.emb (ix1 d)) = _
  rw [V_main_arg8]
  obtain ⟨-, -, -, -, -, -, -, -, e0, -⟩ := idx_facts t
  refine congrArg _ (funext fun a => Fin.ext ?_)
  match a with
  | ⟨0, _⟩ => show win0_8.index t (0 : Fin 1) * 1024 + 1 * d.val = d.val; omega

theorem blk9 (c : Dev nD) (t : Fin cfg0.N) (k : Fin 1024) (d : Fin 1024) :
    iblk m c 9 t (ix2 k d) = m ((c : Thread nD τ).loc main_arg9) (ix4 (0 : Fin 1) (0 : Fin 1) k d) := by
  show V m c main_v5 (((cfg0.win 9).blk t).view.emb (ix2 k d)) = _
  rw [V_v5]
  obtain ⟨-, -, -, -, -, -, -, -, -, ⟨e0, e1⟩, -⟩ := idx_facts t
  refine Eq.trans (congrArg _ (funext fun a => Fin.ext ?_)) (drop2_apply _ _ k d)
  match a with
  | ⟨0, _⟩ => show win0_9.index t (0 : Fin 2) * 1024 + 1 * k.val = k.val; omega
  | ⟨1, _⟩ => show win0_9.index t (1 : Fin 2) * 1024 + 1 * d.val = d.val; omega

theorem blk10 (c : Dev nD) (t : Fin cfg0.N) (d : Fin 1024) :
    iblk m c 10 t (ix1 d) = m ((c : Thread nD τ).loc main_arg10) (ix1 d) := by
  show V m c main_arg10 (((cfg0.win 10).blk t).view.emb (ix1 d)) = _
  rw [V_main_arg10]
  obtain ⟨-, -, -, -, -, -, -, -, -, -, e0, -⟩ := idx_facts t
  refine congrArg _ (funext fun a => Fin.ext ?_)
  match a with
  | ⟨0, _⟩ => show win0_10.index t (0 : Fin 1) * 1024 + 1 * d.val = d.val; omega

/-! ## Where the result windows' blocks lie -/

/-- Entry `(0, r, f)` of the output window's block at point `t` is entry `(t, r, f)` of its array. -/
theorem emb11 (t : Fin cfg0.N) (r : Fin 256) (f : Fin 1024) :
    ((cfg0.win 11).blk t).view.emb (ix3 (0 : Fin 1) r f) = (ix3 (bt t) r f : S64x256x1024.Idx) := by
  obtain ⟨-, -, -, -, -, -, -, -, -, -, -, ⟨e0, e1, e2⟩, -⟩ := idx_facts t
  funext a; apply Fin.ext
  match a with
  | ⟨0, _⟩ => show win0_11.index t (0 : Fin 3) * 1 + 1 * 0 = t.val; omega
  | ⟨1, _⟩ => show win0_11.index t (1 : Fin 3) * 256 + 1 * r.val = r.val; omega
  | ⟨2, _⟩ => show win0_11.index t (2 : Fin 3) * 1024 + 1 * f.val = f.val; omega

/-- Entry `(0, r, n)` of the weights window's block at point `t` is entry `(t, r, n)` of its array. -/
theorem emb12 (t : Fin cfg0.N) (r n : Fin 256) :
    ((cfg0.win 12).blk t).view.emb (ix3 (0 : Fin 1) r n) = (ix3 (bt t) r n : S64x256x256.Idx) := by
  obtain ⟨-, -, -, -, -, -, -, -, -, -, -, -, ⟨e0, e1, e2⟩⟩ := idx_facts t
  funext a; apply Fin.ext
  match a with
  | ⟨0, _⟩ => show win0_12.index t (0 : Fin 3) * 1 + 1 * 0 = t.val; omega
  | ⟨1, _⟩ => show win0_12.index t (1 : Fin 3) * 256 + 1 * r.val = r.val; omega
  | ⟨2, _⟩ => show win0_12.index t (2 : Fin 3) * 256 + 1 * n.val = n.val; omega

/-- An index of the output array is in point `t`'s block iff each coordinate is in the block's range on its axis. -/
theorem mem_blk11 (t : Fin cfg0.N) (i : S64x256x1024.Idx) :
    i ∈ ((cfg0.win 11).blk t).view.set ↔ ∀ a : Fin 3, win0_11.index t a * S1x256x1024.size a ≤ (i a).val ∧ (i a).val < win0_11.index t a * S1x256x1024.size a + S1x256x1024.size a := by
  show i ∈ ((View.whole main_v6_0).slice (win0_11.rect t)).set ↔ _
  rw [View.set_slice_whole, Rect.mem_set_unit]
  exact Iff.rfl

/-- The same for the weights array. -/
theorem mem_blk12 (t : Fin cfg0.N) (i : S64x256x256.Idx) :
    i ∈ ((cfg0.win 12).blk t).view.set ↔ ∀ a : Fin 3, win0_12.index t a * S1x256x256.size a ≤ (i a).val ∧ (i a).val < win0_12.index t a * S1x256x256.size a + S1x256x256.size a := by
  show i ∈ ((View.whole main_v6_1).slice (win0_12.rect t)).set ↔ _
  rw [View.set_slice_whole, Rect.mem_set_unit]
  exact Iff.rfl

/-- Every entry of the output array lies in the block of its batch's point. -/
theorem cover11 (i : S64x256x1024.Idx) :
    ∃ t : Fin cfg0.N, (cfg0.win 11).flush t = true ∧ i ∈ ((cfg0.win 11).blk t).view.set := by
  refine ⟨pt (i 0), flush0_11 _, ?_⟩
  rw [mem_blk11]
  obtain ⟨-, -, -, -, -, -, -, -, -, -, -, ⟨e0, e1, e2⟩, -⟩ := idx_facts (pt (i 0))
  have hv : (pt (i 0)).val = (i 0).val := rfl
  have h1 : (i 1).val < 256 := (i 1).isLt
  have h2 : (i 2).val < 1024 := (i 2).isLt
  intro a
  match a with
  | ⟨0, _⟩ => show win0_11.index (pt (i 0)) (0 : Fin 3) * 1 ≤ (i 0).val ∧ (i 0).val < win0_11.index (pt (i 0)) (0 : Fin 3) * 1 + 1; omega
  | ⟨1, _⟩ => show win0_11.index (pt (i 0)) (1 : Fin 3) * 256 ≤ (i 1).val ∧ (i 1).val < win0_11.index (pt (i 0)) (1 : Fin 3) * 256 + 256; omega
  | ⟨2, _⟩ => show win0_11.index (pt (i 0)) (2 : Fin 3) * 1024 ≤ (i 2).val ∧ (i 2).val < win0_11.index (pt (i 0)) (2 : Fin 3) * 1024 + 1024; omega

/-- Every entry of the weights array lies in the block of its batch's point. -/
theorem cover12 (i : S64x256x256.Idx) :
    ∃ t : Fin cfg0.N, (cfg0.win 12).flush t = true ∧ i ∈ ((cfg0.win 12).blk t).view.set := by
  refine ⟨pt (i 0), flush0_12 _, ?_⟩
  rw [mem_blk12]
  obtain ⟨-, -, -, -, -, -, -, -, -, -, -, -, ⟨e0, e1, e2⟩⟩ := idx_facts (pt (i 0))
  have hv : (pt (i 0)).val = (i 0).val := rfl
  have h1 : (i 1).val < 256 := (i 1).isLt
  have h2 : (i 2).val < 256 := (i 2).isLt
  intro a
  match a with
  | ⟨0, _⟩ => show win0_12.index (pt (i 0)) (0 : Fin 3) * 1 ≤ (i 0).val ∧ (i 0).val < win0_12.index (pt (i 0)) (0 : Fin 3) * 1 + 1; omega
  | ⟨1, _⟩ => show win0_12.index (pt (i 0)) (1 : Fin 3) * 256 ≤ (i 1).val ∧ (i 1).val < win0_12.index (pt (i 0)) (1 : Fin 3) * 256 + 256; omega
  | ⟨2, _⟩ => show win0_12.index (pt (i 0)) (2 : Fin 3) * 256 ≤ (i 2).val ∧ (i 2).val < win0_12.index (pt (i 0)) (2 : Fin 3) * 256 + 256; omega

end Cert.KernelIdeal.KValue

end
-- ==== Proof.LibPlainDot.lean ====
/-
  A matrix product with plain dimension numbers, read at an index on the extended reals.

  For an `M×K` by `K×N` contraction (left axis 1 against right axis 0, no batch axis) the element at `(r, c)` of
  a matrix-unit product into a zero accumulator, and of the host's `dot_general`, is the sum over `k : Fin K` of
  `l (r, k) * w (k, c)`: the contraction's one-axis index type is re-indexed by its single coordinate.
-/
import Idealize.ShloMosaic.PureOps.Ideal.Laws
import Idealize.ShloMosaic.Lib.ValueIdx

noncomputable section

namespace Cert.PlainDot

open Idealize.ShloMosaic Idealize.ShloMosaic.ValueIdx

/-- The contraction sum of a plain `M×K` by `K×N` product at output index `j`, over `Fin K`. -/
theorem contr_sum (M K N : Nat) (l : (⟨2, ![M, K]⟩ : Shape).Idx → EReal) (w : (⟨2, ![K, N]⟩ : Shape).Idx → EReal)
    (j : (⟨2, ![M, N]⟩ : Shape).Idx) :
    (∑ q : (DotDims.plain M K N).contr.Idx, l ((DotDims.plain M K N).lhsIdx j q) * w ((DotDims.plain M K N).rhsIdx j q))
      = ∑ k : Fin K, l (ix2 (j 0) k) * w (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  rw [el, er]
  rfl

/-- A matrix-unit product into the zero accumulator, at an index. -/
theorem matmul_zero_apply (M K N : Nat) {φ₁ φ₂ : FTy} (prec : Option ContractPrecision)
    (l : FVec Ideal (⟨2, ![M, K]⟩ : Shape) φ₁) (w : FVec Ideal (⟨2, ![K, N]⟩ : Shape) φ₂) (j : (⟨2, ![M, N]⟩ : Shape).Idx) :
    FloatOps.matmul (DotDims.plain M K N) prec l w (constant (⟨2, ![M, N]⟩ : Shape) .f32 0x00000000#32) j
      = ∑ k : Fin K, l (ix2 (j 0) k) * w (ix2 k (j 1)) :=
  (Ideal.matmul_constant_zero_apply (DotDims.plain M K N) prec l w j).trans (contr_sum M K N l w j)

/-- The host's `dot_general`, at an index. -/
theorem dotGeneral_apply (M K N : Nat) {φ₁ φ₂ : FTy} (prec : Option ContractPrecision) (sched : HostSchedule)
    (l : FVec Ideal (⟨2, ![M, K]⟩ : Shape) φ₁) (w : FVec Ideal (⟨2, ![K, N]⟩ : Shape) φ₂) (j : (⟨2, ![M, N]⟩ : Shape).Idx) :
    FloatOps.dotGeneral (DotDims.plain M K N) prec sched l w j
      = ∑ k : Fin K, l (ix2 (j 0) k) * w (ix2 k (j 1)) :=
  (Ideal.dotGeneral_apply (DotDims.plain M K N) prec sched l w j).trans (contr_sum M K N l w j)

end Cert.PlainDot

end
-- ==== Proof.KPayProj.lean ====
/-
  The projection values of the attention body, read at an index on the extended reals.

  The body first drops the leading unit axis of its image and text blocks, projects them by a matrix product into a
  zero accumulator, and adds a bias that is a vector laid out as one row and repeated over the 256 rows. Narrowing a
  value's format does nothing on the extended reals, a shape cast to the same shape is the identity, and a product
  with plain dimension numbers is, at `(r, c)`, the sum over the contracted coordinate of row `r` times column `c`.
  Each statement here reads one such value at explicit coordinates as the specification's projection or product.
-/
import proofs.«150338_j26980984553970_1_alg».proof.Proof.Gen.KernelIdeal.Skeleton
import proofs.«150338_j26980984553970_1_alg».proof.Proof.Spec
import proofs.«150338_j26980984553970_1_alg».proof.Proof.LibPlainDot
import Idealize.ShloMosaic.Lib.Pipeline.Value
import Idealize.ShloMosaic.Lib.ValueLayout
import Idealize.ShloMosaic.Lib.ValueIdx

noncomputable section
open Idealize.ShloMosaic Idealize.ShloMosaic.ValueIdx

namespace Cert.KernelIdeal.KPay
open Cert.KernelIdeal Cert.KernelIdeal.Gen

/-- A vector laid out as one row and repeated over `R` rows reads, at `(p, c)`, the vector at `c`. -/
private theorem bias_row_apply {α : Type} {R C : ℕ} (b : (⟨1, ![C]⟩ : Shape).Idx → α)
    (hc : (⟨1, ![C]⟩ : Shape).ShapeCasts ⟨2, ![1, C]⟩) (hb : (⟨2, ![1, C]⟩ : Shape).Broadcasts ⟨2, ![R, C]⟩)
    (p : Fin R) (c : Fin C) :
    broadcastTo ⟨2, ![R, C]⟩ (shapeCast ⟨2, ![1, C]⟩ b hc) hb (ix2 p c) = b (ix1 c) :=
  (broadcastTo_1b_ab_apply _ hb p c).trans (shapeCast_a_1a_apply b hc 0 c)

/-- The bias of the value projection, one row repeated over the tokens. -/
theorem pay10_apply (v14 : Vec Ideal S1024 .f32) (n : Fin 256) (c : Fin 1024) :
    k0_pay10 (F := Ideal) v14 (ix2 n c) = v14 (ix1 c) :=
  bias_row_apply v14 shapeCasts_S1024_S1x1024 broadcasts_S1x1024_S256x1024 n c

/-- The mask block with one of its two unit axes dropped. -/
theorem pay5_apply (v4 : Vec Ideal S1x1x256 .f32) (n : Fin 256) :
    k0_pay5 (F := Ideal) v4 (ix2 (0 : Fin 1) n) = v4 (ix3 (0 : Fin 1) (0 : Fin 1) n) :=
  shapeCast_1ab_ab_apply v4 shapeCasts_S1x1x256_S1x256 (0 : Fin 1) n

/-- The output projection's matrix, cast to its own shape. -/
theorem pay6_apply (v15 : Vec Ideal S1024x1024 .f32) (c f : Fin 1024) :
    k0_pay6 (F := Ideal) v15 (ix2 c f) = v15 (ix2 c f) :=
  congrFun (shapeCast_self v15 shapeCasts_S1024x1024_S1024x1024) (ix2 c f)

/-- The value projection's product: the text block against the value matrix, no bias. -/
theorem pay9_apply (v2 : Vec Ideal S1x256x768 .f32) (v12 : Vec Ideal S768x1024 .f32) (n : Fin 256) (c : Fin 1024) :
    k0_pay9 (F := Ideal) v2 v12 (ix2 n c)
      = Cert.Attn.mm (fun n k => v2 (ix3 (0 : Fin 1) n k)) (fun k c => v12 (ix2 k c)) n c := by
  unfold k0_pay9 k0_pay4
  refine (Cert.PlainDot.matmul_zero_apply 256 768 1024 (φ₁ := .bf16) (φ₂ := .bf16) none _ _ (ix2 n c)).trans ?_
  refine Finset.sum_congr rfl fun k _ => ?_
  exact congrArg₂ (· * ·) (shapeCast_1ab_ab_apply v2 shapeCasts_S1x256x768_S256x768 n k)
    (congrFun (shapeCast_self v12 shapeCasts_S768x1024_S768x1024) (ix2 k c))

/-- The query projection: the image block against the query matrix, plus the query bias. -/
theorem pay7_apply (v0 : Vec Ideal S1x256x1024 .f32) (v6 : Vec Ideal S1024x512 .f32) (v8 : Vec Ideal S512 .f32) (r : Fin 256) (d : Fin 512) :
    k0_pay7 (F := Ideal) v0 v6 v8 (ix2 r d)
      = Cert.Attn.proj (fun r c => v0 (ix3 (0 : Fin 1) r c)) (fun c d => v6 (ix2 c d)) (fun d => v8 (ix1 d)) r d := by
  unfold k0_pay7
  refine congrArg₂ (· + ·) ?_ (bias_row_apply v8 shapeCasts_S512_S1x512 broadcasts_S1x512_S256x512 r d)
  refine (Cert.PlainDot.matmul_zero_apply 256 1024 512 (φ₁ := .bf16) (φ₂ := .bf16) none _ _ (ix2 r d)).trans ?_
  refine Finset.sum_congr rfl fun k _ => ?_
  exact congrArg₂ (· * ·) (shapeCast_1ab_ab_apply v0 shapeCasts_S1x256x1024_S256x1024 r k)
    (congrFun (shapeCast_self v6 shapeCasts_S1024x512_S1024x512) (ix2 k d))

/-- The key projection: the text block against the key matrix, plus the key bias. -/
theorem pay8_apply (v2 : Vec Ideal S1x256x768 .f32) (v9 : Vec Ideal S768x512 .f32) (v11 : Vec Ideal S512 .f32) (n : Fin 256) (d : Fin 512) :
    k0_pay8 (F := Ideal) v2 v9 v11 (ix2 n d)
      = Cert.Attn.proj (fun n c => v2 (ix3 (0 : Fin 1) n c)) (fun c d => v9 (ix2 c d)) (fun d => v11 (ix1 d)) n d := by
  unfold k0_pay8 k0_pay4
  refine congrArg₂ (· + ·) ?_ (bias_row_apply v11 shapeCasts_S512_S1x512 broadcasts_S1x512_S256x512 n d)
  refine (Cert.PlainDot.matmul_zero_apply 256 768 512 (φ₁ := .bf16) (φ₂ := .bf16) none _ _ (ix2 n d)).trans ?_
  refine Finset.sum_congr rfl fun k _ => ?_
  exact congrArg₂ (· * ·) (shapeCast_1ab_ab_apply v2 shapeCasts_S1x256x768_S256x768 n k)
    (congrFun (shapeCast_self v9 shapeCasts_S768x512_S768x512) (ix2 k d))

end Cert.KernelIdeal.KPay
end
-- ==== Proof.LibKeepdims.lean ====
/-
  Sums along one axis of a matrix with the reduced axis kept as a unit axis, read at an index.

  A row sum of an `M×K` matrix kept as a column (`[M] → [M, 1]`) and broadcast over `N` columns reads, at `(p, c)`,
  the sum over `k : Fin K` of row `p`; a column sum of a `K×N` matrix kept as a row (`[N] → [1, N]`) and broadcast
  over `M` rows reads, at `(p, c)`, the sum over `k : Fin K` of column `c`. The two layout steps that the column form
  needs (a trailing unit axis added by a shape cast, a column broadcast over many columns) are stated on their own.
-/
import Idealize.ShloMosaic.PureOps.Ideal.Laws
import Idealize.ShloMosaic.Lib.ValueIdx
import Idealize.ShloMosaic.Lib.ValueLayout

noncomputable section

namespace Cert.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of a matrix over its columns (axis 1), at row `p`: the sum of that row. -/
theorem sum_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A lane sum of a matrix over its rows (axis 0), at column `q`: the sum of that column. -/
theorem sum_axis0_apply {a b : ℕ} {φ : FTy} (src : FVec Ideal (⟨2, ![a, b]⟩ : Shape) φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ k : Fin a, src (ix2 k q) :=
  (Ideal.multiReduction_add_single src acc h hφ hacc (ix1 q)).trans
    (Finset.sum_congr rfl fun k _ => congrArg src (funext fun ax => Fin.ext (by
      match ax with
      | ⟨0, _⟩ => rfl
      | ⟨1, _⟩ => rfl)))

/-- The row sums of an `M×K` matrix, kept as a column and broadcast over `N` columns, at `(p, c)`. -/
theorem rowSum_keep_bcast_apply {M K N : ℕ} {φ : FTy} (src : FVec Ideal (⟨2, ![M, K]⟩ : Shape) φ) (acc : BitVec φ.bits)
    (h : (⟨2, ![M, K]⟩ : Shape).Reduces [1] ⟨1, ![M]⟩) (hφ : FKind.Formats φ) (hacc : acc = FKind.add.neutral φ hφ)
    (hc : (⟨1, ![M]⟩ : Shape).ShapeCasts ⟨2, ![M, 1]⟩) (hb : (⟨2, ![M, 1]⟩ : Shape).Broadcasts ⟨2, ![M, N]⟩)
    (p : Fin M) (c : Fin N) :
    broadcastTo ⟨2, ![M, N]⟩ (shapeCast ⟨2, ![M, 1]⟩ (multiReduction .add [1] ⟨1, ![M]⟩ src acc h hφ hacc) hc) hb (ix2 p c)
      = ∑ k : Fin K, src (ix2 p k) :=
  (broadcastTo_a1_ab_apply _ hb p c).trans
    ((shapeCast_a_a1_apply _ hc p 0).trans (sum_axis1_apply src acc h hφ hacc p))

/-- The column sums of a `K×N` matrix, kept as a row and broadcast over `M` rows, at `(p, c)`. -/
theorem colSum_keep_bcast_apply {M K N : ℕ} {φ : FTy} (src : FVec Ideal (⟨2, ![K, N]⟩ : Shape) φ) (acc : BitVec φ.bits)
    (h : (⟨2, ![K, N]⟩ : Shape).Reduces [0] ⟨1, ![N]⟩) (hφ : FKind.Formats φ) (hacc : acc = FKind.add.neutral φ hφ)
    (hc : (⟨1, ![N]⟩ : Shape).ShapeCasts ⟨2, ![1, N]⟩) (hb : (⟨2, ![1, N]⟩ : Shape).Broadcasts ⟨2, ![M, N]⟩)
    (p : Fin M) (c : Fin N) :
    broadcastTo ⟨2, ![M, N]⟩ (shapeCast ⟨2, ![1, N]⟩ (multiReduction .add [0] ⟨1, ![N]⟩ src acc h hφ hacc) hc) hb (ix2 p c)
      = ∑ k : Fin K, src (ix2 k c) :=
  (broadcastTo_1b_ab_apply _ hb p c).trans
    ((shapeCast_a_1a_apply _ hc 0 c).trans (sum_axis0_apply src acc h hφ hacc c))

end Cert.Keepdims

end
-- ==== Proof.LibRowMax.lean ====
/-
  A maximum along the columns of a matrix, read at an index.

  A lane maximum of an `a × b` matrix over its columns (axis 1), taken from the accumulator's value (the word of −∞),
  reads at row `p` the fold of `max` from that value over the `b` entries of row `p`: the reduced index with each
  column coordinate inserted is the matrix index `(p, k)`.
-/
import Idealize.ShloMosaic.PureOps.Ideal.Laws
import Idealize.ShloMosaic.Lib.ValueIdx

noncomputable section

namespace Cert.RowMax

open Idealize.ShloMosaic Idealize.ShloMosaic.ValueIdx

/-- A lane maximum of a matrix over its columns (axis 1), at row `p`: the fold of `max` from the accumulator's value
    over that row. -/
theorem max_axis1_apply {a b : ℕ} {φ : FTy} (src : FVec Ideal (⟨2, ![a, b]⟩ : Shape) φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => Finset.fold max (Ideal.ofBits φ acc) f (Finset.univ : Finset (Fin b)))
      (funext fun k => congrArg src (funext fun ax => Fin.ext (by
        match ax with
        | ⟨0, _⟩ => rfl
        | ⟨1, _⟩ => rfl))))

end Cert.RowMax

end
-- ==== Proof.KPaySoft.lean ====
/-
  The kernel's masked softmax and its output projection, read at an index on the extended reals.

  The scores are a product contracting the feature axis of both operands, so its entry at `(r, n)` is the sum over the
  512 features of query row `r` against key row `n`. Each later step is read at `(r, n)` in turn: the row's maximum
  folded from −∞ and compared once more with −∞, kept as a column and broadcast back; the score less that maximum,
  exponentiated; the row's sum of those exponentials, kept as a column and broadcast back; the quotient; and the mask
  row broadcast over the rows, multiplied in. The result is the masked softmax weight of the specification, with no sum
  rearranged.

  The output is the weights against the sum of the two value matrices, that product against the output matrix, plus a
  bias broadcast over the rows; both products are plain, so each entry is a sum over one coordinate in its natural order.
  Every narrowing format change is the identity on the extended reals.
-/
import proofs.«150338_j26980984553970_1_alg».proof.Proof.Gen.KernelIdeal.Skeleton
import proofs.«150338_j26980984553970_1_alg».proof.Proof.Spec
import proofs.«150338_j26980984553970_1_alg».proof.Proof.LibPlainDot
import proofs.«150338_j26980984553970_1_alg».proof.Proof.LibKeepdims
import proofs.«150338_j26980984553970_1_alg».proof.Proof.LibRowMax
import Idealize.ShloMosaic.Lib.Pipeline.Value
import Idealize.ShloMosaic.Lib.ValueLayout
import Idealize.ShloMosaic.Lib.ValueIdx

noncomputable section
open Idealize.ShloMosaic Idealize.ShloMosaic.ValueIdx
open scoped BigOperators

namespace Cert.KernelIdeal.KPay
open Cert.KernelIdeal Cert.KernelIdeal.Gen

/-! ## The scores: a product contracting the second axis of both operands -/

/-- The left operand's row coordinate in a product contracting the second axis of both operands: the output's row. -/
private theorem lhs_rows_0 (j : S256x256.Idx) (q : dot_S256x512_S256x512_S256x256_1_1_0_0_n_n.contr.Idx) :
    (dot_S256x512_S256x512_S256x256_1_1_0_0_n_n.lhsIdx j q 0).val = (j 0).val := by
  unfold DotDims.lhsIdx
  rw [dif_neg (show ¬(0 : Fin S256x512.rank) ∈ dot_S256x512_S256x512_S256x256_1_1_0_0_n_n.lhsBatch by decide),
    dif_pos (show (0 : Fin S256x512.rank) ∈ dot_S256x512_S256x512_S256x256_1_1_0_0_n_n.lhsNonContracting by decide)]
  rfl

/-- The right operand's row coordinate in that product: the output's column. -/
private theorem rhs_rows_0 (j : S256x256.Idx) (q : dot_S256x512_S256x512_S256x256_1_1_0_0_n_n.contr.Idx) :
    (dot_S256x512_S256x512_S256x256_1_1_0_0_n_n.rhsIdx j q 0).val = (j 1).val := by
  unfold DotDims.rhsIdx
  rw [dif_neg (show ¬(0 : Fin S256x512.rank) ∈ dot_S256x512_S256x512_S256x256_1_1_0_0_n_n.rhsBatch by decide),
    dif_pos (show (0 : Fin S256x512.rank) ∈ dot_S256x512_S256x512_S256x256_1_1_0_0_n_n.rhsNonContracting by decide)]
  rfl

/-- A matrix-unit product contracting the second axis of both operands, into the zero accumulator: at `(r, n)` the sum
    over `d : Fin 512` of row `r` of the left operand against row `n` of the right one. -/
private theorem matmul_rows_apply {φ₁ φ₂ : FTy} (l : FVec Ideal S256x512 φ₁) (w : FVec Ideal S256x512 φ₂) (r n : Fin 256) :
    FloatOps.matmul dot_S256x512_S256x512_S256x256_1_1_0_0_n_n none l w (constant S256x256 .f32 0x00000000#32) (ix2 r n)
      = ∑ d : Fin 512, l (ix2 r d) * w (ix2 n d) := by
  refine (Ideal.matmul_constant_zero_apply dot_S256x512_S256x512_S256x256_1_1_0_0_n_n none l w (ix2 r n)).trans ?_
  rw [← Equiv.sum_comp (contrEquiv1 dot_S256x512_S256x512_S256x256_1_1_0_0_n_n 512 rfl rfl).symm]
  refine Finset.sum_congr rfl fun k _ => ?_
  have hk := contrEquiv1_symm_val dot_S256x512_S256x512_S256x256_1_1_0_0_n_n 512 rfl rfl k
  have el : dot_S256x512_S256x512_S256x256_1_1_0_0_n_n.lhsIdx (ix2 r n)
      ((contrEquiv1 dot_S256x512_S256x512_S256x256_1_1_0_0_n_n 512 rfl rfl).symm k) = ix2 r k :=
    funext fun a => Fin.ext (by
      match a with
      | ⟨0, _⟩ => exact lhs_rows_0 _ _
      | ⟨1, _⟩ => exact (dot_S256x512_S256x512_S256x256_1_1_0_0_n_n.lhsIdx_val_of_single rfl (ix2 r n) _).trans hk)
  have er : dot_S256x512_S256x512_S256x256_1_1_0_0_n_n.rhsIdx (ix2 r n)
      ((contrEquiv1 dot_S256x512_S256x512_S256x256_1_1_0_0_n_n 512 rfl rfl).symm k) = ix2 n k :=
    funext fun a => Fin.ext (by
      match a with
      | ⟨0, _⟩ => exact rhs_rows_0 _ _
      | ⟨1, _⟩ => exact (dot_S256x512_S256x512_S256x256_1_1_0_0_n_n.rhsIdx_val_of_single rfl (ix2 r n) _).trans hk)
  rw [el, er]

/-! ## The softmax of a score matrix, step by step -/

/-- The row maxima of a score matrix, folded from −∞, compared once more with −∞, kept as a column and broadcast over
    the columns: at `(r, n)` the maximum of row `r`. -/
private theorem rowMax_bcast_apply (s : FVec Ideal S256x256 .f32) (r n : Fin 256) :
    broadcastTo S256x256 (shapeCast S256x1 (maximumf (F := Ideal) (broadcast S256 (Scalar.ofBits .f32 0xFF800000#32))
        (multiReduction .maximumf [1] S256 s 0xFF800000#32 reduces_S256x256_S256 (.inl rfl) rfl)) shapeCasts_S256_S256x1)
      broadcasts_S256x1_S256x256 (ix2 r n)
      = Cert.Attn.rowMax (fun r n => s (ix2 r n)) r :=
  (Cert.Keepdims.broadcastTo_a1_ab_apply _ broadcasts_S256x1_S256x256 r n).trans
    ((Cert.Keepdims.shapeCast_a_a1_apply _ shapeCasts_S256_S256x1 r 0).trans
      (congrArg (max Cert.Attn.negInf)
        (Cert.RowMax.max_axis1_apply s 0xFF800000#32 reduces_S256x256_S256 (.inl rfl) rfl r)))

/-- A score less its row's broadcast maximum, exponentiated: at `(r, n)` the exponential the softmax sums. -/
private theorem expo_apply (s : FVec Ideal S256x256 .f32) (r n : Fin 256) :
    exp (F := Ideal) (subf s (broadcastTo S256x256 (shapeCast S256x1 (maximumf (F := Ideal)
        (broadcast S256 (Scalar.ofBits .f32 0xFF800000#32))
        (multiReduction .maximumf [1] S256 s 0xFF800000#32 reduces_S256x256_S256 (.inl rfl) rfl)) shapeCasts_S256_S256x1)
      broadcasts_S256x1_S256x256)) (ix2 r n)
      = Cert.Attn.expo (fun r n => s (ix2 r n)) r n :=
  congrArg (fun m => Ideal.exp (s (ix2 r n) - m)) (rowMax_bcast_apply s r n)

/-- A matrix divided entrywise by its row sums (kept as a column, broadcast back), then multiplied entrywise by a row
    broadcast over the rows: at `(r, n)` the entry over the sum of row `r`, times the row's entry `n`. -/
private theorem normalise_mask_apply (e : FVec Ideal S256x256 .f32) (v5 : FVec Ideal S1x256 .f32) (r n : Fin 256) :
    mulf (divf e (broadcastTo S256x256 (shapeCast S256x1
        (multiReduction .add [1] S256 e 0x00000000#32 reduces_S256x256_S256 (.inl rfl) rfl) shapeCasts_S256_S256x1)
        broadcasts_S256x1_S256x256)) (broadcastTo S256x256 v5 broadcasts_S1x256_S256x256) (ix2 r n)
      = Ideal.div (e (ix2 r n)) (∑ k : Fin 256, e (ix2 r k)) * v5 (ix2 (0 : Fin 1) n) :=
  congrArg₂ (fun a b => Ideal.div (e (ix2 r n)) a * b)
    (Cert.Keepdims.rowSum_keep_bcast_apply e 0x00000000#32 reduces_S256x256_S256 (.inl rfl) rfl shapeCasts_S256_S256x1
      broadcasts_S256x1_S256x256 r n)
    (broadcastTo_1b_ab_apply v5 broadcasts_S1x256_S256x256 r n)

/-- The exponentials of a score matrix less its broadcast row maxima. -/
private abbrev shifted (s : FVec Ideal S256x256 .f32) : FVec Ideal S256x256 .f32 :=
  exp (F := Ideal) (subf s (broadcastTo S256x256 (shapeCast S256x1 (maximumf (F := Ideal)
      (broadcast S256 (Scalar.ofBits .f32 0xFF800000#32))
      (multiReduction .maximumf [1] S256 s 0xFF800000#32 reduces_S256x256_S256 (.inl rfl) rfl)) shapeCasts_S256_S256x1)
    broadcasts_S256x1_S256x256))

/-- The masked softmax of a score matrix, operation by operation, at `(r, n)`. -/
private theorem softmax_apply (s : FVec Ideal S256x256 .f32) (v5 : FVec Ideal S1x256 .f32) (r n : Fin 256) :
    mulf (divf (shifted s) (broadcastTo S256x256 (shapeCast S256x1
        (multiReduction .add [1] S256 (shifted s) 0x00000000#32 reduces_S256x256_S256 (.inl rfl) rfl) shapeCasts_S256_S256x1)
        broadcasts_S256x1_S256x256)) (broadcastTo S256x256 v5 broadcasts_S1x256_S256x256) (ix2 r n)
      = Cert.Attn.weights (fun r n => s (ix2 r n)) (fun n => v5 (ix2 (0 : Fin 1) n)) r n :=
  (normalise_mask_apply (shifted s) v5 r n).trans
    (congrArg₂ (fun a b => Ideal.div a b * v5 (ix2 (0 : Fin 1) n)) (expo_apply s r n)
      (Finset.sum_congr rfl fun k _ => expo_apply s r k))

/-- The kernel's weights at `(r, n)`: the masked softmax of the scores of the two projected operands. -/
theorem pay1_apply (v5 : FVec Ideal S1x256 .f32) (v23 v29 : FVec Ideal S256x512 .f32) (r n : Fin 256) :
    k0_pay1 (F := Ideal) v5 v23 v29 (ix2 r n)
      = Cert.Attn.weights (Cert.Attn.scores (fun r d => v23 (ix2 r d)) (fun n d => v29 (ix2 n d))) (fun n => v5 (ix2 (0 : Fin 1) n)) r n := by
  unfold k0_pay1
  refine (softmax_apply _ v5 r n).trans ?_
  exact congrArg (fun S => Cert.Attn.weights S (fun n => v5 (ix2 (0 : Fin 1) n)) r n)
    (funext fun r => funext fun n =>
      matmul_rows_apply (truncf .bf16 v23 bitsLt_bf16_f32) (truncf .bf16 v29 bitsLt_bf16_f32) r n)

/-- The weights with a leading unit axis added read, at `(0, r, n)`, the weights at `(r, n)`. -/
theorem pay3_apply (v5 : FVec Ideal S1x256 .f32) (v23 v29 : FVec Ideal S256x512 .f32) (r n : Fin 256) :
    k0_pay3 (F := Ideal) v5 v23 v29 (ix3 (0 : Fin 1) r n) = k0_pay1 (F := Ideal) v5 v23 v29 (ix2 r n) := by
  unfold k0_pay3
  exact shapeCast_ab_1ab_apply (k0_pay1 (F := Ideal) v5 v23 v29) shapeCasts_S256x256_S1x256x256 (0 : Fin 1) r n

/-! ## The output projection -/

/-- A bias vector given a leading unit axis and broadcast over the rows: at `(r, f)` the bias of column `f`. -/
private theorem bias_rows_apply (v17 : Vec Ideal S1024 .f32) (r : Fin 256) (f : Fin 1024) :
    broadcastTo S256x1024 (shapeCast S1x1024 v17 shapeCasts_S1024_S1x1024) broadcasts_S1x1024_S256x1024 (ix2 r f)
      = v17 (ix1 f) :=
  (broadcastTo_1b_ab_apply _ broadcasts_S1x1024_S256x1024 r f).trans
    (shapeCast_a_1a_apply v17 shapeCasts_S1024_S1x1024 (0 : Fin 1) f)

/-- A weights matrix against the sum of two value matrices, the product against an output matrix, plus a bias broadcast
    over the rows, with a leading unit axis added: at `(0, r, f)` the projection of the weighted values. -/
private theorem out_proj_apply (p : FVec Ideal S256x256 .f32) (v16 : FVec Ideal S1024x1024 .f32) (v17 : Vec Ideal S1024 .f32)
    (v32 v34 : FVec Ideal S256x1024 .f32) (r : Fin 256) (f : Fin 1024) :
    shapeCast S1x256x1024 (addf
        (FloatOps.matmul dot_S256x1024_S1024x1024_S256x1024_1_0_0_1_n_n none
          (truncf .bf16 (FloatOps.matmul dot_S256x256_S256x1024_S256x1024_1_0_0_1_n_n none
            (truncf .bf16 p bitsLt_bf16_f32) (truncf .bf16 (addf v32 v34) bitsLt_bf16_f32)
            (constant S256x1024 .f32 0x00000000#32)) bitsLt_bf16_f32)
          (truncf .bf16 v16 bitsLt_bf16_f32) (constant S256x1024 .f32 0x00000000#32))
        (broadcastTo S256x1024 (shapeCast S1x1024 v17 shapeCasts_S1024_S1x1024) broadcasts_S1x1024_S256x1024))
      shapeCasts_S256x1024_S1x256x1024 (ix3 (0 : Fin 1) r f)
      = Cert.Attn.proj (Cert.Attn.mm (fun r n => p (ix2 r n)) (fun n c => v32 (ix2 n c) + v34 (ix2 n c)))
          (fun c f => v16 (ix2 c f)) (fun f => v17 (ix1 f)) r f := by
  refine (shapeCast_ab_1ab_apply _ shapeCasts_S256x1024_S1x256x1024 (0 : Fin 1) r f).trans ?_
  refine congrArg₂ (fun a b => a + b) ?_ (bias_rows_apply v17 r f)
  refine (Cert.PlainDot.matmul_zero_apply 256 1024 1024 none _ _ (ix2 r f)).trans ?_
  refine Finset.sum_congr rfl fun c _ => ?_
  exact congrArg (fun a => a * v16 (ix2 c f))
    (Cert.PlainDot.matmul_zero_apply 256 256 1024 none (truncf .bf16 p bitsLt_bf16_f32)
      (truncf .bf16 (addf v32 v34) bitsLt_bf16_f32) (ix2 r c))

/-- The kernel's output at `(0, r, f)`: the weights against the summed values, projected, plus the bias. -/
theorem pay2_apply (v5 : FVec Ideal S1x256 .f32) (v16 : FVec Ideal S1024x1024 .f32) (v17 : Vec Ideal S1024 .f32)
    (v23 v29 : FVec Ideal S256x512 .f32) (v32 v34 : FVec Ideal S256x1024 .f32) (r : Fin 256) (f : Fin 1024) :
    k0_pay2 (F := Ideal) v5 v16 v17 v23 v29 v32 v34 (ix3 (0 : Fin 1) r f)
      = Cert.Attn.proj (Cert.Attn.mm (fun r n => k0_pay1 (F := Ideal) v5 v23 v29 (ix2 r n)) (fun n c => v32 (ix2 n c) + v34 (ix2 n c)))
          (fun c f => v16 (ix2 c f)) (fun f => v17 (ix1 f)) r f := by
  unfold k0_pay2
  exact out_proj_apply (k0_pay1 (F := Ideal) v5 v23 v29) v16 v17 v32 v34 r f

end Cert.KernelIdeal.KPay
end
-- ==== Proof.KPay.lean ====
/-
  What the kernel body leaves in its two result windows, entry by entry, as the specification's functions of the
  entries of its eleven loaded blocks: each window is filled by one store, whose value is the composition of the
  projections, the masked softmax and the two further products read at an index.
-/
import proofs.«150338_j26980984553970_1_alg».proof.Proof.Gen.KernelIdeal.Frame
import proofs.«150338_j26980984553970_1_alg».proof.Proof.KPayProj
import proofs.«150338_j26980984553970_1_alg».proof.Proof.KPaySoft
import Idealize.ShloMosaic.Lib.Pipeline.Value

noncomputable section
open Idealize.ShloMosaic Idealize.ShloMosaic.ValueIdx

namespace Cert.KernelIdeal.KPay
open Cert.KernelIdeal Cert.KernelIdeal.Gen
private theorem hz3 : (![0, 0, 0] : Fin 3 → Nat) = fun _ => 0 := funext fun a => by fin_cases a <;> rfl
private theorem hz2 : (![0, 0] : Fin 2 → Nat) = fun _ => 0 := funext fun a => by fin_cases a <;> rfl
private theorem hz1 : (![0] : Fin 1 → Nat) = fun _ => 0 := funext fun a => by fin_cases a <;> rfl

/-- The weights the body computes from its loaded blocks, at `(r, n)`: the masked softmax of the projected image block
    against the projected text block. -/
theorem pay1_beta (x0 : Vec Ideal S1x256x1024 .f32) (x1 : Vec Ideal S1x256x768 .f32) (x2 : Vec Ideal S1x1x256 .f32)
    (x3 : Vec Ideal S1024x512 .f32) (x4 : Vec Ideal S512 .f32) (x5 : Vec Ideal S768x512 .f32) (x6 : Vec Ideal S512 .f32) (r n : Fin 256) :
    k0_pay1 (F := Ideal) (k0_pay5 x2) (k0_pay7 x0 x3 x4) (k0_pay8 x1 x5 x6) (ix2 r n)
      = Cert.Attn.beta (fun r c => x0 (ix3 (0 : Fin 1) r c)) (fun n c => x1 (ix3 (0 : Fin 1) n c))
          (fun n => x2 (ix3 (0 : Fin 1) (0 : Fin 1) n)) (fun c d => x3 (ix2 c d)) (fun d => x4 (ix1 d))
          (fun c d => x5 (ix2 c d)) (fun d => x6 (ix1 d)) r n := by
  refine (pay1_apply _ _ _ r n).trans ?_
  unfold Cert.Attn.beta
  have h7 : (fun r d => k0_pay7 (F := Ideal) x0 x3 x4 (ix2 r d))
      = Cert.Attn.proj (fun r c => x0 (ix3 (0 : Fin 1) r c)) (fun c d => x3 (ix2 c d)) (fun d => x4 (ix1 d)) :=
    funext fun r => funext fun d => pay7_apply x0 x3 x4 r d
  have h8 : (fun n d => k0_pay8 (F := Ideal) x1 x5 x6 (ix2 n d))
      = Cert.Attn.proj (fun n c => x1 (ix3 (0 : Fin 1) n c)) (fun c d => x5 (ix2 c d)) (fun d => x6 (ix1 d)) :=
    funext fun n => funext fun d => pay8_apply x1 x5 x6 n d
  have h5 : (fun n => k0_pay5 (F := Ideal) x2 (ix2 (0 : Fin 1) n)) = fun n => x2 (ix3 (0 : Fin 1) (0 : Fin 1) n) :=
    funext fun n => pay5_apply x2 n
  rw [h7, h8, h5]

/-- What the body leaves in the weights window, entry `(0, r, n)`: its one store's payload. -/
theorem out12_apply (x0 : Vec Ideal S1x256x1024 .f32) (x1 : Vec Ideal S1x256x768 .f32) (x2 : Vec Ideal S1x1x256 .f32)
    (x3 : Vec Ideal S1024x512 .f32) (x4 : Vec Ideal S512 .f32) (x5 : Vec Ideal S768x512 .f32) (x6 : Vec Ideal S512 .f32)
    (x7 : Vec Ideal S768x1024 .f32) (x8 : Vec Ideal S1024 .f32) (x9 : Vec Ideal S1024x1024 .f32) (x10 : Vec Ideal S1024 .f32)
    (r n : Fin 256) :
    out0_12 (F := Ideal) x0 x1 x2 x3 x4 x5 x6 x7 x8 x9 x10 (ix3 (0 : Fin 1) r n)
      = Cert.Attn.beta (fun r c => x0 (ix3 (0 : Fin 1) r c)) (fun n c => x1 (ix3 (0 : Fin 1) n c))
          (fun n => x2 (ix3 (0 : Fin 1) (0 : Fin 1) n)) (fun c d => x3 (ix2 c d)) (fun d => x4 (ix1 d))
          (fun c d => x5 (ix2 c d)) (fun d => x6 (ix1 d)) r n := by
  unfold out0_12
  rw [View.canon_unit_zero hz3]
  simp only [View.ld_unit_zero (S := S1x256x1024) hz3, View.ld_unit_zero (S := S1x256x768) hz3,
    View.ld_unit_zero (S := S1x1x256) hz3, View.ld_unit_zero (S := S1024x512) hz2, View.ld_unit_zero (S := S512) hz1,
    View.ld_unit_zero (S := S768x512) hz2]
  exact (pay3_apply _ _ _ r n).trans (pay1_beta x0 x1 x2 x3 x4 x5 x6 r n)

/-- What the body leaves in the output window, entry `(0, r, f)`: the weights against the projected values, projected
    by the output matrix plus its bias. -/
theorem out11_apply (x0 : Vec Ideal S1x256x1024 .f32) (x1 : Vec Ideal S1x256x768 .f32) (x2 : Vec Ideal S1x1x256 .f32)
    (x3 : Vec Ideal S1024x512 .f32) (x4 : Vec Ideal S512 .f32) (x5 : Vec Ideal S768x512 .f32) (x6 : Vec Ideal S512 .f32)
    (x7 : Vec Ideal S768x1024 .f32) (x8 : Vec Ideal S1024 .f32) (x9 : Vec Ideal S1024x1024 .f32) (x10 : Vec Ideal S1024 .f32)
    (r : Fin 256) (f : Fin 1024) :
    out0_11 (F := Ideal) x0 x1 x2 x3 x4 x5 x6 x7 x8 x9 x10 (ix3 (0 : Fin 1) r f)
      = Cert.Attn.out (fun r c => x0 (ix3 (0 : Fin 1) r c)) (fun n c => x1 (ix3 (0 : Fin 1) n c))
          (fun n => x2 (ix3 (0 : Fin 1) (0 : Fin 1) n)) (fun c d => x3 (ix2 c d)) (fun d => x4 (ix1 d))
          (fun c d => x5 (ix2 c d)) (fun d => x6 (ix1 d)) (fun c d => x7 (ix2 c d)) (fun d => x8 (ix1 d))
          (fun c d => x9 (ix2 c d)) (fun d => x10 (ix1 d)) r f := by
  unfold out0_11
  rw [View.canon_unit_zero hz3]
  simp only [View.ld_unit_zero (S := S1x256x1024) hz3, View.ld_unit_zero (S := S1x256x768) hz3,
    View.ld_unit_zero (S := S1x1x256) hz3, View.ld_unit_zero (S := S1024x512) hz2, View.ld_unit_zero (S := S512) hz1,
    View.ld_unit_zero (S := S768x512) hz2, View.ld_unit_zero (S := S768x1024) hz2, View.ld_unit_zero (S := S1024) hz1,
    View.ld_unit_zero (S := S1024x1024) hz2]
  refine (pay2_apply _ _ _ _ _ _ _ r f).trans ?_
  unfold Cert.Attn.out
  have hβ : (fun r n => k0_pay1 (F := Ideal) (k0_pay5 x2) (k0_pay7 x0 x3 x4) (k0_pay8 x1 x5 x6) (ix2 r n))
      = Cert.Attn.beta (fun r c => x0 (ix3 (0 : Fin 1) r c)) (fun n c => x1 (ix3 (0 : Fin 1) n c))
          (fun n => x2 (ix3 (0 : Fin 1) (0 : Fin 1) n)) (fun c d => x3 (ix2 c d)) (fun d => x4 (ix1 d))
          (fun c d => x5 (ix2 c d)) (fun d => x6 (ix1 d)) :=
    funext fun r => funext fun n => pay1_beta x0 x1 x2 x3 x4 x5 x6 r n
  have hv : (fun n c => k0_pay9 (F := Ideal) x1 x7 (ix2 n c) + k0_pay10 (F := Ideal) x8 (ix2 n c))
      = Cert.Attn.proj (fun n c => x1 (ix3 (0 : Fin 1) n c)) (fun c d => x7 (ix2 c d)) (fun d => x8 (ix1 d)) :=
    funext fun n => funext fun c => congrArg₂ (· + ·) (pay9_apply x1 x7 n c) (pay10_apply x8 n c)
  have h6 : (fun c f => k0_pay6 (F := Ideal) x9 (ix2 c f)) = fun c f => x9 (ix2 c f) :=
    funext fun c => funext fun f => pay6_apply x9 c f
  rw [hβ, hv, h6]

end Cert.KernelIdeal.KPay
end
-- ==== Proof.KFinal.lean ====
/-
  The kernel's run, read as values.

  Point `t` of the grid writes back, to batch `t` of each result array, what the body left in that window: by the
  body's payloads read at an index and the blocks read by coordinates, batch `t` of the specification's weights and
  output as functions of the arguments. The 64 blocks cover each array, so after the region each array IS that
  function; the host's one line after the region restores the output's pixel axes, row `16 h + w` becoming pixel
  `(h, w)`.
-/
import proofs.«150338_j26980984553970_1_alg».proof.Proof.KBlocks
import proofs.«150338_j26980984553970_1_alg».proof.Proof.KPay
import Idealize.ShloMosaic.Lib.Pipeline.FrameSuffix

noncomputable section
namespace Cert.KernelIdeal.KValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The weights array `[64, 256, 256]` as a function of the arguments' launch contents. -/
def A12 (c : Dev nD) : S64x256x256.Idx → EReal := fun i =>
  Cert.Attn.Gbeta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 1) (i 2)

/-- The output array `[64, 256, 1024]` (before the host restores the pixel axes) as a function of the arguments'
    launch contents. -/
def A11 (c : Dev nD) : S64x256x1024.Idx → EReal := fun i =>
  Cert.Attn.Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (i 0) (i 1) (i 2)

/-- Two functions on a `[1, a, b]` block agree once they agree at every `(0, r, n)`. -/
theorem ext_1ab {a b : ℕ} {α : Type} (f g : (⟨3, ![1, a, b]⟩ : Shape).Idx → α)
    (h : ∀ (r : Fin a) (n : Fin b), f (ix3 (0 : Fin 1) r n) = g (ix3 (0 : Fin 1) r n)) : f = g :=
  funext fun j => by
    have e : j = ix3 (0 : Fin 1) (j 1) (j 2) := funext fun d => by
      match d with
      | ⟨0, _⟩ => exact Subsingleton.elim (α := Fin 1) _ _
      | ⟨1, _⟩ => rfl
      | ⟨2, _⟩ => rfl
    rw [e]; exact h (j 1) (j 2)

/-- WHAT POINT `t` WRITES BACK to the weights array is block `t` of `A12`. -/
theorem flushed12_eq (c : Dev nD) (t : Fin cfg0.N) :
    (dats m 0 c).flushed 12 t = ((cfg0.win 12).blk t).view.read (Elt Ideal) (A12 m c) := by
  show (cfg0.win 12).cut (grid0.coords t) ((dats m 0 c).after 12 t) = _
  rw [after0_12]
  refine ext_1ab (a := 256) (b := 256) _ _ fun r n => ?_
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r n) = A12 m c (((cfg0.win 12).blk t).view.emb (ix3 (0 : Fin 1) r n))
  rw [emb12]
  refine (Cert.KernelIdeal.KPay.out12_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r n).trans ?_
  show _ = Cert.Attn.Gbeta (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (bt t) r n
  unfold Cert.Attn.Gbeta
  have h0 : (fun r k => iblk m c 0 t (ix3 (0 : Fin 1) r k)) = fun r k => m ((c : Thread nD τ).loc main_arg0) (ix4 (bt t) (Cert.Attn.hi r) (Cert.Attn.lo r) k) :=
    funext fun r => funext fun k => blk0 m c t r k
  have h1 : (fun n k => iblk m c 1 t (ix3 (0 : Fin 1) n k)) = fun n k => m ((c : Thread nD τ).loc main_arg1) (ix3 (bt t) n k) :=
    funext fun n => funext fun k => blk1 m c t n k
  have h2 : (fun n => iblk m c 2 t (ix3 (0 : Fin 1) (0 : Fin 1) n)) = fun n => m ((c : Thread nD τ).loc main_arg2) (ix3 (bt t) n (0 : Fin 1)) :=
    funext fun n => blk2 m c t n
  have h3 : (fun k d => iblk m c 3 t (ix2 k d)) = fun k d => m ((c : Thread nD τ).loc main_arg3) (ix4 (0 : Fin 1) (0 : Fin 1) k d) :=
    funext fun k => funext fun d => blk3 m c t k d
  have h4 : (fun d => iblk m c 4 t (ix1 d)) = fun d => m ((c : Thread nD τ).loc main_arg4) (ix1 d) :=
    funext fun d => blk4 m c t d
  have h5 : (fun k d => iblk m c 5 t (ix2 k d)) = fun k d => m ((c : Thread nD τ).loc main_arg5) (ix3 (0 : Fin 1) k d) :=
    funext fun k => funext fun d => blk5 m c t k d
  have h6 : (fun d => iblk m c 6 t (ix1 d)) = fun d => m ((c : Thread nD τ).loc main_arg6) (ix1 d) :=
    funext fun d => blk6 m c t d
  rw [h0, h1, h2, h3, h4, h5, h6]

/-- WHAT POINT `t` WRITES BACK to the output array is block `t` of `A11`. -/
theorem flushed11_eq (c : Dev nD) (t : Fin cfg0.N) :
    (dats m 0 c).flushed 11 t = ((cfg0.win 11).blk t).view.read (Elt Ideal) (A11 m c) := by
  show (cfg0.win 11).cut (grid0.coords t) ((dats m 0 c).after 11 t) = _
  rw [after0_11]
  refine ext_1ab (a := 256) (b := 1024) _ _ fun r f => ?_
  show out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 (0 : Fin 1) r f) = A11 m c (((cfg0.win 11).blk t).view.emb (ix3 (0 : Fin 1) r f))
  rw [emb11]
  refine (Cert.KernelIdeal.KPay.out11_apply (iblk m c 0 t) (iblk m c 1 t) (iblk m c 2 t) (iblk m c 3 t) (iblk m c 4 t) (iblk m c 5 t) (iblk m c 6 t) (iblk m c 7 t) (iblk m c 8 t) (iblk m c 9 t) (iblk m c 10 t) r f).trans ?_
  show _ = Cert.Attn.Gout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (bt t) r f
  unfold Cert.Attn.Gout
  have h0 : (fun r k => iblk m c 0 t (ix3 (0 : Fin 1) r k)) = fun r k => m ((c : Thread nD τ).loc main_arg0) (ix4 (bt t) (Cert.Attn.hi r) (Cert.Attn.lo r) k) :=
    funext fun r => funext fun k => blk0 m c t r k
  have h1 : (fun n k => iblk m c 1 t (ix3 (0 : Fin 1) n k)) = fun n k => m ((c : Thread nD τ).loc main_arg1) (ix3 (bt t) n k) :=
    funext fun n => funext fun k => blk1 m c t n k
  have h2 : (fun n => iblk m c 2 t (ix3 (0 : Fin 1) (0 : Fin 1) n)) = fun n => m ((c : Thread nD τ).loc main_arg2) (ix3 (bt t) n (0 : Fin 1)) :=
    funext fun n => blk2 m c t n
  have h3 : (fun k d => iblk m c 3 t (ix2 k d)) = fun k d => m ((c : Thread nD τ).loc main_arg3) (ix4 (0 : Fin 1) (0 : Fin 1) k d) :=
    funext fun k => funext fun d => blk3 m c t k d
  have h4 : (fun d => iblk m c 4 t (ix1 d)) = fun d => m ((c : Thread nD τ).loc main_arg4) (ix1 d) :=
    funext fun d => blk4 m c t d
  have h5 : (fun k d => iblk m c 5 t (ix2 k d)) = fun k d => m ((c : Thread nD τ).loc main_arg5) (ix3 (0 : Fin 1) k d) :=
    funext fun k => funext fun d => blk5 m c t k d
  have h6 : (fun d => iblk m c 6 t (ix1 d)) = fun d => m ((c : Thread nD τ).loc main_arg6) (ix1 d) :=
    funext fun d => blk6 m c t d
  have h7 : (fun k d => iblk m c 7 t (ix2 k d)) = fun k d => m ((c : Thread nD τ).loc main_arg7) (ix3 (0 : Fin 1) k d) :=
    funext fun k => funext fun d => blk7 m c t k d
  have h8 : (fun d => iblk m c 8 t (ix1 d)) = fun d => m ((c : Thread nD τ).loc main_arg8) (ix1 d) :=
    funext fun d => blk8 m c t d
  have h9 : (fun k d => iblk m c 9 t (ix2 k d)) = fun k d => m ((c : Thread nD τ).loc main_arg9) (ix4 (0 : Fin 1) (0 : Fin 1) k d) :=
    funext fun k => funext fun d => blk9 m c t k d
  have h10 : (fun d => iblk m c 10 t (ix1 d)) = fun d => m ((c : Thread nD τ).loc main_arg10) (ix1 d) :=
    funext fun d => blk10 m c t d
  rw [h0, h1, h2, h3, h4, h5, h6, h7, h8, h9, h10]

/-- THE WEIGHTS ARRAY after the run: the blocks, one per batch, cover it. -/
theorem final12 (c : Dev nD) : (dats m 0 c).arrAt 12 cfg0.N = A12 m c :=
  (dats m 0 c).arrAt_eq_of_cover 12 (A12 m c) (fun t _ => flushed12_eq m c t) cover12

/-- THE OUTPUT ARRAY after the region. -/
theorem final11 (c : Dev nD) : (dats m 0 c).arrAt 11 cfg0.N = A11 m c :=
  (dats m 0 c).arrAt_eq_of_cover 11 (A11 m c) (fun t _ => flushed11_eq m c t) cover11

/-- Restoring the pixel axes: entry `(b, h, w, f)` of the reshaped array is entry `(b, 16 h + w, f)`. -/
theorem unflat_apply (X : FVec Ideal S64x256x1024 .f32) (i : S64x16x16x1024.Idx) :
    shapeCast S64x16x16x1024 X shapeCasts_S64x256x1024_S64x16x16x1024 i = X (ix3 (i 0) (Cert.Attn.row (i 1) (i 2)) (i 3)) :=
  shapeCast_apply X shapeCasts_S64x256x1024_S64x16x16x1024 i (ix3 (i 0) (Cert.Attn.row (i 1) (i 2)) (i 3)) (by
    rewrite [Shape.rowMajor_val_three, Shape.rowMajor_val_four]
    show ((i 0).val * 256 + ((i 1).val * 16 + (i 2).val)) * 1024 + (i 3).val = (((i 0).val * 16 + (i 1).val) * 16 + (i 2).val) * 1024 + (i 3).val
    omega)

/-- The first result after the run: the host's one line after the region reshapes the output array. -/
theorem tail7 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread nD τ).loc main_v7)
      = (fun i : S64x16x16x1024.Idx => A11 m c (ix3 (i 0) (Cert.Attn.row (i 1) (i 2)) (i 3))) := by
  refine ((h c).2 main_v7 (Pipeline.mem_restRefs_of main_v7 (by decide) (by decide))).trans ?_
  unfold Pipeline.afterTail₀
  show StableHlo.after hostOps1 _ (Proc.devRef .tc main_v7) = _
  after_results
  have e : @Eq (FVec Ideal S64x256x1024 .f32)
      (Pipeline.withArrays (cfgs 0).spec c (V0 m c) (fun w => (dats m 0 c).arrAt w (cfgs 0).N) (Proc.devRef .tc main_v6_0))
      (A11 m c) :=
    (Pipeline.withArrays_arr spec0 launch0.win.arr_inj c _ _ 11).trans (final11 m c)
  funext i
  exact (congrArg (fun A : FVec Ideal S64x256x1024 .f32 =>
      shapeCast S64x16x16x1024 A shapeCasts_S64x256x1024_S64x16x16x1024 i) e).trans (unflat_apply (A11 m c) i)

/-- THE RUN, READ: every weakly fair execution of the kernel's program ends with its first result at the output array
    with the pixel axes restored, its second at the weights array, and the arguments as launched. -/
theorem run : θ_run defs (onTc (τ := τ) (main (F := Ideal))) ⟨m, fun _ => 0, ρ⟩ (fun r => ∀ c : Dev nD,
      r.2.mem ((c.tc : Thread nD τ).loc main_v7)
        = (fun i : S64x16x16x1024.Idx => A11 m c (ix3 (i 0) (Cert.Attn.row (i 1) (i 2)) (i 3)))
      ∧ r.2.mem ((c.tc : Thread nD τ).loc main_v6_1) = A12 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨tail7 m r h c, ((h c).1 12).trans (final12 m c),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 8).trans (((dats m 0 c).arrAt_in 8 rfl _).trans ((A_eq m c 8).trans (V_main_arg8 m c))),
      (((h c).2 main_arg9 (Pipeline.mem_restRefs_of main_arg9 (by decide) (by decide))).trans (W_main_arg9 m (dats m) c)),
      ((h c).1 10).trans (((dats m 0 c).arrAt_in 10 rfl _).trans ((A_eq m c 10).trans (V_main_arg10 m c)))⟩) (run_main m ρ)

end Cert.KernelIdeal.KValue
end
-- ==== Proof.RefQKV.lean ====
/-
  The reference's three projections and its scores, read at an index.

  Each projection is a sum over the channel coordinate of the input row times the weight column, plus the bias
  of that column: the weight array is first read without its leading unit axes, and the bias is broadcast along
  every row. The query projection is computed on the image as a 16 × 16 grid of pixels and then read as 256 rows:
  row `r` is the pixel `(r / 16, r % 16)`. The scores contract the feature coordinate of the queries and the keys
  inside one batch.
-/
import proofs.«150338_j26980984553970_1_alg».proof.Proof.Gen.ReferenceIdeal.Read
import proofs.«150338_j26980984553970_1_alg».proof.Proof.Spec
import Idealize.ShloMosaic.Lib.ValueIdx

noncomputable section
open Idealize.ShloMosaic Idealize.ShloMosaic.ValueIdx

namespace Cert.ReferenceIdeal.RefValue
open Cert.ReferenceIdeal Cert.ReferenceIdeal.Read

/-- The queries: row `r` of batch `b` is the projection of pixel `(r / 16, r % 16)`. -/
theorem v15_apply (x0 : (⟨S64x16x16x1024, .f32⟩ : BufTy).Contents (Elt Ideal)) (x3 : (⟨S1x1x1024x512, .f32⟩ : BufTy).Contents (Elt Ideal)) (x4 : (⟨S512, .f32⟩ : BufTy).Contents (Elt Ideal)) (b : Fin 64) (r : Fin 256) (d : Fin 512) :
    val_main_v15 (F := Ideal) x0 x3 x4 (ix3 b r d)
      = Cert.Attn.proj (fun r c => x0 (ix4 b (Cert.Attn.hi r) (Cert.Attn.lo r) c)) (fun c d => x3 (ix4 (0 : Fin 1) (0 : Fin 1) c d)) (fun d => x4 (ix1 d)) r d := by
  unfold Cert.Attn.proj
  have hb := b.isLt
  have hr := r.isLt
  have hd := d.isLt
  have ei : idx_main_v15 (ix3 b r d) = ix4 b (Cert.Attn.hi r) (Cert.Attn.lo r) d :=
    funext fun a => Fin.ext (by
      match a with
      | ⟨0, _⟩ => show ((b.val * 256 + r.val) * 512 + d.val) / 131072 = b.val; omega
      | ⟨1, _⟩ => show ((b.val * 256 + r.val) * 512 + d.val) / 8192 % 16 = r.val / 16; omega
      | ⟨2, _⟩ => show ((b.val * 256 + r.val) * 512 + d.val) / 512 % 16 = r.val % 16; omega
      | ⟨3, _⟩ => show ((b.val * 256 + r.val) * 512 + d.val) % 512 = d.val; omega)
  rw [val_main_v15_apply, ei, val_main_v4_apply, val_main_v1_apply, val_main_v3_apply, val_main_v2_apply]
  show (∑ k : Fin 1024, x0 (lidx_main_v1 (ix4 b (Cert.Attn.hi r) (Cert.Attn.lo r) d) k)
        * val_main_v0 (F := Ideal) x3 (ridx_main_v1 (ix4 b (Cert.Attn.hi r) (Cert.Attn.lo r) d) k))
      + x4 (idx_main_v2 (idx_main_v3 (ix4 b (Cert.Attn.hi r) (Cert.Attn.lo r) d))) = _
  have e0 : idx_main_v2 (idx_main_v3 (ix4 b (Cert.Attn.hi r) (Cert.Attn.lo r) d)) = ix1 d :=
    funext fun a => Fin.ext (by match a with | ⟨0, _⟩ => rfl)
  rw [e0]
  refine congrArg (· + x4 (ix1 d)) (Finset.sum_congr rfl fun k _ => ?_)
  rw [val_main_v0_apply]
  have e1 : lidx_main_v1 (ix4 b (Cert.Attn.hi r) (Cert.Attn.lo r) d) k = ix4 b (Cert.Attn.hi r) (Cert.Attn.lo r) k :=
    funext fun a => Fin.ext (by match a with | ⟨0, _⟩ => rfl | ⟨1, _⟩ => rfl | ⟨2, _⟩ => rfl | ⟨3, _⟩ => rfl)
  have e2 : idx_main_v0 (ridx_main_v1 (ix4 b (Cert.Attn.hi r) (Cert.Attn.lo r) d) k) = ix4 (0 : Fin 1) (0 : Fin 1) k d :=
    funext fun a => Fin.ext (by
      have hk := k.isLt
      match a with
      | ⟨0, _⟩ => rfl
      | ⟨1, _⟩ => rfl
      | ⟨2, _⟩ => show (k.val * 512 + d.val) / 512 % 1024 = k.val; omega
      | ⟨3, _⟩ => show (k.val * 512 + d.val) % 512 = d.val; omega)
  rw [e1, e2]

/-- The keys: row `n` of batch `b` is the projection of token `n`. -/
theorem v9_apply (x1 : (⟨S64x256x768, .f32⟩ : BufTy).Contents (Elt Ideal)) (x5 : (⟨S1x768x512, .f32⟩ : BufTy).Contents (Elt Ideal)) (x6 : (⟨S512, .f32⟩ : BufTy).Contents (Elt Ideal)) (b : Fin 64) (n : Fin 256) (d : Fin 512) :
    val_main_v9 (F := Ideal) x1 x5 x6 (ix3 b n d)
      = Cert.Attn.proj (fun n c => x1 (ix3 b n c)) (fun c d => x5 (ix3 (0 : Fin 1) c d)) (fun d => x6 (ix1 d)) n d := by
  unfold Cert.Attn.proj
  rw [val_main_v9_apply, val_main_v6_apply, val_main_v8_apply, val_main_v7_apply]
  show (∑ k : Fin 768, x1 (lidx_main_v6 (ix3 b n d) k) * val_main_v5 (F := Ideal) x5 (ridx_main_v6 (ix3 b n d) k))
      + x6 (idx_main_v7 (idx_main_v8 (ix3 b n d))) = _
  have e0 : idx_main_v7 (idx_main_v8 (ix3 b n d)) = ix1 d :=
    funext fun a => Fin.ext (by match a with | ⟨0, _⟩ => rfl)
  rw [e0]
  refine congrArg (· + x6 (ix1 d)) (Finset.sum_congr rfl fun k _ => ?_)
  rw [val_main_v5_apply]
  have e1 : lidx_main_v6 (ix3 b n d) k = ix3 b n k :=
    funext fun a => Fin.ext (by match a with | ⟨0, _⟩ => rfl | ⟨1, _⟩ => rfl | ⟨2, _⟩ => rfl)
  have e2 : idx_main_v5 (ridx_main_v6 (ix3 b n d) k) = ix3 (0 : Fin 1) k d :=
    funext fun a => Fin.ext (by
      have hk := k.isLt
      have hd := d.isLt
      match a with
      | ⟨0, _⟩ => rfl
      | ⟨1, _⟩ => show (k.val * 512 + d.val) / 512 % 768 = k.val; omega
      | ⟨2, _⟩ => show (k.val * 512 + d.val) % 512 = d.val; omega)
  rw [e1, e2]

/-- The values: row `n` of batch `b` is the projection of token `n`. -/
theorem v14_apply (x1 : (⟨S64x256x768, .f32⟩ : BufTy).Contents (Elt Ideal)) (x7 : (⟨S1x768x1024, .f32⟩ : BufTy).Contents (Elt Ideal)) (x8 : (⟨S1024, .f32⟩ : BufTy).Contents (Elt Ideal)) (b : Fin 64) (n : Fin 256) (c : Fin 1024) :
    val_main_v14 (F := Ideal) x1 x7 x8 (ix3 b n c)
      = Cert.Attn.proj (fun n k => x1 (ix3 b n k)) (fun k c => x7 (ix3 (0 : Fin 1) k c)) (fun c => x8 (ix1 c)) n c := by
  unfold Cert.Attn.proj
  rw [val_main_v14_apply, val_main_v11_apply, val_main_v13_apply, val_main_v12_apply]
  show (∑ k : Fin 768, x1 (lidx_main_v11 (ix3 b n c) k) * val_main_v10 (F := Ideal) x7 (ridx_main_v11 (ix3 b n c) k))
      + x8 (idx_main_v12 (idx_main_v13 (ix3 b n c))) = _
  have e0 : idx_main_v12 (idx_main_v13 (ix3 b n c)) = ix1 c :=
    funext fun a => Fin.ext (by match a with | ⟨0, _⟩ => rfl)
  rw [e0]
  refine congrArg (· + x8 (ix1 c)) (Finset.sum_congr rfl fun k _ => ?_)
  rw [val_main_v10_apply]
  have e1 : lidx_main_v11 (ix3 b n c) k = ix3 b n k :=
    funext fun a => Fin.ext (by match a with | ⟨0, _⟩ => rfl | ⟨1, _⟩ => rfl | ⟨2, _⟩ => rfl)
  have e2 : idx_main_v10 (ridx_main_v11 (ix3 b n c) k) = ix3 (0 : Fin 1) k c :=
    funext fun a => Fin.ext (by
      have hk := k.isLt
      have hc := c.isLt
      match a with
      | ⟨0, _⟩ => rfl
      | ⟨1, _⟩ => show (k.val * 1024 + c.val) / 1024 % 768 = k.val; omega
      | ⟨2, _⟩ => show (k.val * 1024 + c.val) % 1024 = c.val; omega)
  rw [e1, e2]

/-- The scores of batch `b`: query row `r` against key row `n`, summed over the feature coordinate. -/
theorem v16_of (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal))
    (b : Fin 64) (q k : Fin 256 → Fin 512 → EReal)
    (hq : ∀ r d, val_main_v15 (F := Ideal) x0 x3 x4 (ix3 b r d) = q r d)
    (hk : ∀ n d, val_main_v9 (F := Ideal) x1 x5 x6 (ix3 b n d) = k n d) (r n : Fin 256) :
    val_main_v16 (F := Ideal) x0 x1 x3 x4 x5 x6 (ix3 b r n) = Cert.Attn.scores q k r n := by
  unfold Cert.Attn.scores
  rw [val_main_v16_apply]
  refine Finset.sum_congr rfl fun d _ => ?_
  have e1 : lidx_main_v16 (ix3 b r n) d = ix3 b r d :=
    funext fun a => Fin.ext (by match a with | ⟨0, _⟩ => rfl | ⟨1, _⟩ => rfl | ⟨2, _⟩ => rfl)
  have e2 : ridx_main_v16 (ix3 b r n) d = ix3 b n d :=
    funext fun a => Fin.ext (by match a with | ⟨0, _⟩ => rfl | ⟨1, _⟩ => rfl | ⟨2, _⟩ => rfl)
  rw [e1, e2, hq, hk]

end Cert.ReferenceIdeal.RefValue
end
-- ==== Proof.RefSoft.lean ====
import proofs.«150338_j26980984553970_1_alg».proof.Proof.Gen.ReferenceIdeal.Read
import proofs.«150338_j26980984553970_1_alg».proof.Proof.Spec
import Idealize.ShloMosaic.Lib.ValueIdx
import Idealize.ShloMosaic.PureOps.Ideal.Laws
import Idealize.ShloMosaic.PureOps.Reduce

noncomputable section
open Idealize.ShloMosaic Idealize.ShloMosaic.ValueIdx

namespace Cert.ReferenceIdeal.RefValue
open Cert.ReferenceIdeal Cert.ReferenceIdeal.Read

/-! The reference's softmax, read at the index `(b, r, n)`.

  With the scores of batch `b` known pointwise as `s r n`, each stage is read at an index with explicit
  coordinates: the row maximum is the fold of `max` from −∞ along the last axis, compared once more with −∞ and
  broadcast back along that axis; the exponentials of the differences are summed along the same axis from the
  constant `0` (which `0 + x = x` removes) and broadcast back; the quotient is multiplied by the mask, whose
  `[64, 256, 1]` array is transposed to `[64, 1, 256]` and broadcast along the rows. -/

open Cert.ReferenceIdeal.Gen in
/-- The reduction with `max` along the last axis, at `(b, r)`: the fold of `max` from −∞ over row `r` of the scores. -/
private theorem v17_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r : Fin 256) :
    val_main_v17 (F := Ideal) x0 x1 x3 x4 x5 x6 (ix2 b r)
      = (Finset.univ : Finset (Fin 256)).fold max Cert.Attn.negInf (fun n => s r n) := by
  unfold val_main_v17
  refine (Host.reduce_eq_fold_single FloatOps.maximumf _ _ reducesTo_S64x256x256_S64x256_d2 (by decide) h_S_ (ix2 b r)).trans ?_
  refine congrArg (fun f => Finset.fold max Cert.Attn.negInf f (Finset.univ : Finset (Fin 256))) (funext fun k => ?_)
  refine (congrArg (val_main_v16 (F := Ideal) x0 x1 x3 x4 x5 x6) (?_ : _ = ix3 b r k)).trans (hs r k)
  exact funext fun a => Fin.ext (by match a with | ⟨0, _⟩ => rfl | ⟨1, _⟩ => rfl | ⟨2, _⟩ => rfl)

/-- Compared once more with the broadcast −∞: the row maximum as the specification spells it. -/
private theorem v19_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r : Fin 256) :
    val_main_v19 (F := Ideal) x0 x1 x3 x4 x5 x6 (ix2 b r) = Cert.Attn.rowMax s r := by
  refine (val_main_v19_apply x0 x1 x3 x4 x5 x6 (ix2 b r)).trans ?_
  show max (val_main_v18 (F := Ideal) (ix2 b r)) (val_main_v17 (F := Ideal) x0 x1 x3 x4 x5 x6 (ix2 b r))
    = max Cert.Attn.negInf ((Finset.univ : Finset (Fin 256)).fold max Cert.Attn.negInf (fun n => s r n))
  exact congrArg₂ max ((val_main_v18_apply (F := Ideal) (ix2 b r)).trans rfl) (v17_at x0 x1 x3 x4 x5 x6 b s hs r)

/-- Broadcast back along the last axis: every entry of row `r` reads the row's maximum. -/
private theorem v21_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r n : Fin 256) :
    val_main_v21 (F := Ideal) x0 x1 x3 x4 x5 x6 (ix3 b r n) = Cert.Attn.rowMax s r := by
  refine (val_main_v21_apply x0 x1 x3 x4 x5 x6 (ix3 b r n)).trans ?_
  refine (val_main_v20_apply x0 x1 x3 x4 x5 x6 _).trans ?_
  refine (congrArg (val_main_v19 (F := Ideal) x0 x1 x3 x4 x5 x6) (?_ : _ = ix2 b r)).trans (v19_at x0 x1 x3 x4 x5 x6 b s hs r)
  exact funext fun a => Fin.ext (by match a with | ⟨0, _⟩ => rfl | ⟨1, _⟩ => rfl)

/-- The exponential of a score less its row's maximum. -/
private theorem v23_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r n : Fin 256) :
    val_main_v23 (F := Ideal) x0 x1 x3 x4 x5 x6 (ix3 b r n) = Cert.Attn.expo s r n := by
  show Ideal.exp (val_main_v16 (F := Ideal) x0 x1 x3 x4 x5 x6 (ix3 b r n) - val_main_v21 (F := Ideal) x0 x1 x3 x4 x5 x6 (ix3 b r n))
    = Ideal.exp (s r n - Cert.Attn.rowMax s r)
  exact congrArg Ideal.exp (congrArg₂ (· - ·) (hs r n) (v21_at x0 x1 x3 x4 x5 x6 b s hs r n))

/-- The sum of a row's exponentials: the reduction starts from the constant `0`, and `0 + x = x`. -/
private theorem v24_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r : Fin 256) :
    val_main_v24 (F := Ideal) x0 x1 x3 x4 x5 x6 (ix2 b r) = ∑ n' : Fin 256, Cert.Attn.expo s r n' := by
  refine (val_main_v24_apply x0 x1 x3 x4 x5 x6 (ix2 b r)).trans ?_
  refine (congrArg (· + _) ((val_main_cst_1_apply (F := Ideal) _).trans Ideal.ofBits_zero_f32)).trans ?_
  refine (zero_add _).trans (Finset.sum_congr rfl fun k _ => ?_)
  refine (congrArg (val_main_v23 (F := Ideal) x0 x1 x3 x4 x5 x6) (?_ : _ = ix3 b r k)).trans (v23_at x0 x1 x3 x4 x5 x6 b s hs r k)
  exact funext fun a => Fin.ext (by match a with | ⟨0, _⟩ => rfl | ⟨1, _⟩ => rfl | ⟨2, _⟩ => rfl)

/-- Broadcast back along the last axis: every entry of row `r` reads the row's sum. -/
private theorem v26_at (x0 : (⟨S64x16x16x1024, .f32⟩ : BufTy).Contents (Elt Ideal)) (x1 : (⟨S64x256x768, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal)) (b : Fin 64) (s : Fin 256 → Fin 256 → EReal)
    (hs : ∀ r n, val_main_v16 (F := Ideal) x0 x1 x3 x4 x5 x6 (ix3 b r n) = s r n) (r n : Fin 256) :
    val_main_v26 (F := Ideal) x0 x1 x3 x4 x5 x6 (ix3 b r n) = ∑ n' : Fin 256, Cert.Attn.expo s r n' := by
  refine (val_main_v26_apply x0 x1 x3 x4 x5 x6 (ix3 b r n)).trans ?_
  refine (val_main_v25_apply x0 x1 x3 x4 x5 x6 _).trans ?_
  refine (congrArg (val_main_v24 (F := Ideal) x0 x1 x3 x4 x5 x6) (?_ : _ = ix2 b r)).trans (v24_at x0 x1 x3 x4 x5 x6 b s hs r)
  exact funext fun a => Fin.ext (by match a with | ⟨0, _⟩ => rfl | ⟨1, _⟩ => rfl)

/-- The mask, transposed and broadcast along the rows: entry `(b, r, n)` reads the mask of token `n`. -/
private theorem v29_at (x2 : (⟨S64x256x1, .f32⟩ : BufTy).Contents (Elt Ideal)) (b : Fin 64) (r n : Fin 256) :
    val_main_v29 (F := Ideal) x2 (ix3 b r n) = x2 (ix3 b n (0 : Fin 1)) := by
  refine (val_main_v29_apply x2 (ix3 b r n)).trans ?_
  refine (val_main_v28_apply x2 _).trans ?_
  refine congrArg x2 ?_
  exact funext fun a => Fin.ext (by match a with | ⟨0, _⟩ => rfl | ⟨1, _⟩ => rfl | ⟨2, _⟩ => rfl)

/-- The reference's masked softmax weights of batch `b`, at `(b, r, n)`: the exponential over the row's sum, times the mask of token `n`. -/
theorem v30_of_v16 (x0 : (⟨S64x16x16x1024, .f32⟩ : BufTy).Contents (Elt Ideal)) (x1 : (⟨S64x256x768, .f32⟩ : BufTy).Contents (Elt Ideal)) (x2 : (⟨S64x256x1, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal))
    (b : Fin 64) (s : Fin 256 → Fin 256 → EReal)
    (hs : ∀ r n, val_main_v16 (F := Ideal) x0 x1 x3 x4 x5 x6 (ix3 b r n) = s r n) (r n : Fin 256) :
    val_main_v30 (F := Ideal) x0 x1 x2 x3 x4 x5 x6 (ix3 b r n) = Cert.Attn.weights s (fun n => x2 (ix3 b n (0 : Fin 1))) r n := by
  show Ideal.div (val_main_v23 (F := Ideal) x0 x1 x3 x4 x5 x6 (ix3 b r n)) (val_main_v26 (F := Ideal) x0 x1 x3 x4 x5 x6 (ix3 b r n))
      * val_main_v29 (F := Ideal) x2 (ix3 b r n)
    = Ideal.div (Cert.Attn.expo s r n) (∑ n' : Fin 256, Cert.Attn.expo s r n') * x2 (ix3 b n (0 : Fin 1))
  exact congrArg₂ (· * ·)
    (congrArg₂ Ideal.div (v23_at x0 x1 x3 x4 x5 x6 b s hs r n) (v26_at x0 x1 x3 x4 x5 x6 b s hs r n))
    (v29_at x2 b r n)

end Cert.ReferenceIdeal.RefValue
end
-- ==== Proof.RefOut.lean ====
/-
  The reference's output, read at an index.

  The attended values of batch `b` — the weights against the projected values, summed over the tokens — are
  computed as 256 rows and then read as a 16 × 16 grid of pixels: pixel `(h, w)` is row `h * 16 + w`. The output
  projection is a sum over the channel coordinate of that row times the weight column, the weight array read
  without its leading unit axes, plus the bias of the column, broadcast along every pixel.
-/
import proofs.«150338_j26980984553970_1_alg».proof.Proof.Gen.ReferenceIdeal.Read
import proofs.«150338_j26980984553970_1_alg».proof.Proof.Spec
import Idealize.ShloMosaic.Lib.ValueIdx

noncomputable section
open Idealize.ShloMosaic Idealize.ShloMosaic.ValueIdx

namespace Cert.ReferenceIdeal.RefValue
open Cert.ReferenceIdeal Cert.ReferenceIdeal.Read

/-- The output at pixel `(h, w)` of batch `b`: row `h * 16 + w` of the attended values, projected. -/
theorem v37_of (x0 : (⟨S64x16x16x1024, .f32⟩ : BufTy).Contents (Elt Ideal)) (x1 : (⟨S64x256x768, .f32⟩ : BufTy).Contents (Elt Ideal)) (x2 : (⟨S64x256x1, .f32⟩ : BufTy).Contents (Elt Ideal)) (x3 : (⟨S1x1x1024x512, .f32⟩ : BufTy).Contents (Elt Ideal)) (x4 : (⟨S512, .f32⟩ : BufTy).Contents (Elt Ideal)) (x5 : (⟨S1x768x512, .f32⟩ : BufTy).Contents (Elt Ideal)) (x6 : (⟨S512, .f32⟩ : BufTy).Contents (Elt Ideal))
    (x7 : (⟨S1x768x1024, .f32⟩ : BufTy).Contents (Elt Ideal)) (x8 : (⟨S1024, .f32⟩ : BufTy).Contents (Elt Ideal)) (x9 : (⟨S1x1x1024x1024, .f32⟩ : BufTy).Contents (Elt Ideal)) (x10 : (⟨S1024, .f32⟩ : BufTy).Contents (Elt Ideal))
    (b : Fin 64) (β : Fin 256 → Fin 256 → EReal) (v : Fin 256 → Fin 1024 → EReal)
    (hβ : ∀ r n, val_main_v30 (F := Ideal) x0 x1 x2 x3 x4 x5 x6 (ix3 b r n) = β r n)
    (hv : ∀ n c, val_main_v14 (F := Ideal) x1 x7 x8 (ix3 b n c) = v n c) (h w : Fin 16) (f : Fin 1024) :
    val_main_v37 (F := Ideal) x0 x1 x2 x3 x4 x5 x6 x7 x8 x9 x10 (ix4 b h w f)
      = Cert.Attn.proj (Cert.Attn.mm β v) (fun c f => x9 (ix4 (0 : Fin 1) (0 : Fin 1) c f)) (fun f => x10 (ix1 f)) (Cert.Attn.row h w) f := by
  unfold Cert.Attn.proj
  rw [val_main_v37_apply, val_main_v34_apply, val_main_v36_apply, val_main_v35_apply]
  show (∑ c : Fin 1024, val_main_v32 (F := Ideal) x0 x1 x2 x3 x4 x5 x6 x7 x8 (lidx_main_v34 (ix4 b h w f) c)
        * val_main_v33 (F := Ideal) x9 (ridx_main_v34 (ix4 b h w f) c))
      + x10 (idx_main_v35 (idx_main_v36 (ix4 b h w f))) = _
  have e0 : idx_main_v35 (idx_main_v36 (ix4 b h w f)) = ix1 f :=
    funext fun a => Fin.ext (by match a with | ⟨0, _⟩ => rfl)
  rw [e0]
  refine congrArg (· + x10 (ix1 f)) (Finset.sum_congr rfl fun c _ => ?_)
  have hb := b.isLt
  have hh := h.isLt
  have hw := w.isLt
  have hc := c.isLt
  have hf := f.isLt
  -- the weight: the reshaped array read at (c, f)
  have e2 : idx_main_v33 (ridx_main_v34 (ix4 b h w f) c) = ix4 (0 : Fin 1) (0 : Fin 1) c f :=
    funext fun a => Fin.ext (by
      match a with
      | ⟨0, _⟩ => rfl
      | ⟨1, _⟩ => rfl
      | ⟨2, _⟩ => show (c.val * 1024 + f.val) / 1024 % 1024 = c.val; omega
      | ⟨3, _⟩ => show (c.val * 1024 + f.val) % 1024 = f.val; omega)
  -- the attended value: pixel (h, w) of batch b is row h * 16 + w of its 256
  have e1 : idx_main_v32 (lidx_main_v34 (ix4 b h w f) c) = ix3 b (Cert.Attn.row h w) c :=
    funext fun a => Fin.ext (by
      match a with
      | ⟨0, _⟩ => show (((b.val * 16 + h.val) * 16 + w.val) * 1024 + c.val) / 262144 = b.val; omega
      | ⟨1, _⟩ => show (((b.val * 16 + h.val) * 16 + w.val) * 1024 + c.val) / 1024 % 256 = h.val * 16 + w.val; omega
      | ⟨2, _⟩ => show (((b.val * 16 + h.val) * 16 + w.val) * 1024 + c.val) % 1024 = c.val; omega)
  rw [val_main_v33_apply, e2, val_main_v32_apply, e1, val_main_v31_apply]
  refine congrArg (· * x9 (ix4 (0 : Fin 1) (0 : Fin 1) c f)) ?_
  unfold Cert.Attn.mm
  refine Finset.sum_congr rfl fun n _ => ?_
  have e3 : lidx_main_v31 (ix3 b (Cert.Attn.row h w) c) n = ix3 b (Cert.Attn.row h w) n :=
    funext fun a => Fin.ext (by match a with | ⟨0, _⟩ => rfl | ⟨1, _⟩ => rfl | ⟨2, _⟩ => rfl)
  have e4 : ridx_main_v31 (ix3 b (Cert.Attn.row h w) c) n = ix3 b n c :=
    funext fun a => Fin.ext (by match a with | ⟨0, _⟩ => rfl | ⟨1, _⟩ => rfl | ⟨2, _⟩ => rfl)
  rw [e3, e4, hβ, hv]

end Cert.ReferenceIdeal.RefValue
end
-- ==== Proof.RefValue.lean ====
/-
  The reference's two results at an index are the specification's.

  The scores of batch `b` are the projected queries of its 256 pixel rows against its projected keys, the weights
  their masked softmax, and the output the weights against the projected values, projected once more; the output's
  row `(h, w)` of the `[64, 16, 16, 1024]` result is row `16 h + w` of the batch.
-/
import proofs.«150338_j26980984553970_1_alg».proof.Proof.RefQKV
import proofs.«150338_j26980984553970_1_alg».proof.Proof.RefSoft
import proofs.«150338_j26980984553970_1_alg».proof.Proof.RefOut

noncomputable section
open Idealize.ShloMosaic Idealize.ShloMosaic.ValueIdx

namespace Cert.ReferenceIdeal.RefValue
open Cert.ReferenceIdeal Cert.ReferenceIdeal.Read

/-- The reference's attention weights at `(b, r, n)`. -/
theorem v30_apply (x0 : (⟨S64x16x16x1024, .f32⟩ : BufTy).Contents (Elt Ideal)) (x1 : (⟨S64x256x768, .f32⟩ : BufTy).Contents (Elt Ideal))
    (x2 : (⟨S64x256x1, .f32⟩ : BufTy).Contents (Elt Ideal)) (x3 : (⟨S1x1x1024x512, .f32⟩ : BufTy).Contents (Elt Ideal))
    (x4 : (⟨S512, .f32⟩ : BufTy).Contents (Elt Ideal)) (x5 : (⟨S1x768x512, .f32⟩ : BufTy).Contents (Elt Ideal))
    (x6 : (⟨S512, .f32⟩ : BufTy).Contents (Elt Ideal)) (b : Fin 64) (r n : Fin 256) :
    val_main_v30 (F := Ideal) x0 x1 x2 x3 x4 x5 x6 (ix3 b r n) = Cert.Attn.Gbeta x0 x1 x2 x3 x4 x5 x6 b r n :=
  v30_of_v16 x0 x1 x2 x3 x4 x5 x6 b _
    (fun r n => v16_of x0 x1 x3 x4 x5 x6 b _ _ (fun r d => v15_apply x0 x3 x4 b r d) (fun n d => v9_apply x1 x5 x6 b n d) r n) r n

/-- The reference's attended output at `(b, h, w, f)`. -/
theorem v37_apply (x0 : (⟨S64x16x16x1024, .f32⟩ : BufTy).Contents (Elt Ideal)) (x1 : (⟨S64x256x768, .f32⟩ : BufTy).Contents (Elt Ideal))
    (x2 : (⟨S64x256x1, .f32⟩ : BufTy).Contents (Elt Ideal)) (x3 : (⟨S1x1x1024x512, .f32⟩ : BufTy).Contents (Elt Ideal))
    (x4 : (⟨S512, .f32⟩ : BufTy).Contents (Elt Ideal)) (x5 : (⟨S1x768x512, .f32⟩ : BufTy).Contents (Elt Ideal))
    (x6 : (⟨S512, .f32⟩ : BufTy).Contents (Elt Ideal)) (x7 : (⟨S1x768x1024, .f32⟩ : BufTy).Contents (Elt Ideal))
    (x8 : (⟨S1024, .f32⟩ : BufTy).Contents (Elt Ideal)) (x9 : (⟨S1x1x1024x1024, .f32⟩ : BufTy).Contents (Elt Ideal))
    (x10 : (⟨S1024, .f32⟩ : BufTy).Contents (Elt Ideal)) (b : Fin 64) (h w : Fin 16) (f : Fin 1024) :
    val_main_v37 (F := Ideal) x0 x1 x2 x3 x4 x5 x6 x7 x8 x9 x10 (ix4 b h w f)
      = Cert.Attn.Gout x0 x1 x2 x3 x4 x5 x6 x7 x8 x9 x10 b (Cert.Attn.row h w) f :=
  v37_of x0 x1 x2 x3 x4 x5 x6 x7 x8 x9 x10 b _ _
    (fun r n => v30_apply x0 x1 x2 x3 x4 x5 x6 b r n) (fun n c => v14_apply x1 x7 x8 b n c) h w f

end Cert.ReferenceIdeal.RefValue
end
-- ==== Proof.lean ====
/-
  The five claims about the cross-attention kernel and its reference.

  Both programs compute, per batch, queries, keys and values by three projections with bias, the scores of every pixel
  row against every token, a softmax along the tokens whose weights are then multiplied by the tokens' mask (not
  renormalised), the weighted sum of the values, and one more projection with bias; they return that output over the
  pixel grid and the weights. The kernel narrows the operands of its six matrix products to a shorter float format,
  which on the extended reals does nothing; it works on the image flattened to 256 rows per batch, one batch per
  grid point, where the reference keeps the pixel axes and contracts whole arrays. Read at an index, every operation
  of the two programs is the same operation of the same entries, every sum over the same coordinate in the same
  order: both results are the specification's functions (Proof/Spec.lean) of the argument arrays, with no law of
  the extended reals used beyond `0 + x = x`, so the inputs' finiteness is never opened.

  The kernel's two frames are the generated ones; the reference's frame is its generated run with the results
  dropped; the ideal pass rewrote nothing, so there is nothing to preserve.
-/
import proofs.«150338_j26980984553970_1_alg».proof.Defs
import proofs.«150338_j26980984553970_1_alg».proof.Proof.Gen.Kernel
import proofs.«150338_j26980984553970_1_alg».proof.Proof.Gen.Kernel.Skeleton
import proofs.«150338_j26980984553970_1_alg».proof.Proof.Gen.Kernel.Launch
import proofs.«150338_j26980984553970_1_alg».proof.Proof.Gen.Kernel.Points
import proofs.«150338_j26980984553970_1_alg».proof.Proof.Gen.Kernel.Frame
import proofs.«150338_j26980984553970_1_alg».proof.Proof.Gen.KernelIdeal
import proofs.«150338_j26980984553970_1_alg».proof.Proof.Gen.KernelIdeal.Skeleton
import proofs.«150338_j26980984553970_1_alg».proof.Proof.Gen.KernelIdeal.Launch
import proofs.«150338_j26980984553970_1_alg».proof.Proof.Gen.KernelIdeal.Points
import proofs.«150338_j26980984553970_1_alg».proof.Proof.Gen.KernelIdeal.Frame
import proofs.«150338_j26980984553970_1_alg».proof.Proof.Gen.ReferenceIdeal
import proofs.«150338_j26980984553970_1_alg».proof.Proof.Gen.Pre_finite_inputs
import proofs.«150338_j26980984553970_1_alg».proof.Proof.Gen.ReferenceIdeal.Run
import proofs.«150338_j26980984553970_1_alg».proof.Proof.Gen.ReferenceIdeal.Read
import proofs.«150338_j26980984553970_1_alg».proof.Proof.KFinal
import proofs.«150338_j26980984553970_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation: nothing to preserve. -/
theorem preserves : Cert.preserves_Kernel_KernelIdeal := trivial

/-- From memories agreeing on the arguments both programs end with the output at the specification's output of the
    arguments, pixel `(h, w)` its row `16 h + w`, and the weights at the specification's weights. -/
theorem algebraic : Cert.algebraic_KernelIdeal_ReferenceIdeal := by
  intro m ρ m' ρ' _ hagree
  refine ⟨fun c => (fun i : Cert.KernelIdeal.S64x16x16x1024.Idx =>
      Cert.KernelIdeal.KValue.A11 m c (ix3 (i 0) (Cert.Attn.row (i 1) (i 2)) (i 3))),
    fun c => Cert.KernelIdeal.KValue.A12 m c, Cert.KernelIdeal.KValue.run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v37_eq, a0, a1, a2, a3, a4, a5, a6, a7, a8, a9, a10]
    funext i
    obtain ⟨b, h, w, f, rfl⟩ : ∃ (b : Fin 64) (h w : Fin 16) (f : Fin 1024), i = ix4 b h w f := ⟨i 0, i 1, i 2, i 3, eq_ix4 i⟩
    exact Cert.ReferenceIdeal.RefValue.v37_apply _ _ _ _ _ _ _ _ _ _ _ b h w f
  · obtain ⟨a0, a1, a2, a3, a4, a5, a6, a7, a8, a9, a10⟩ := hagree c
    rw [Cert.ReferenceIdeal.Read.val_main_v30_eq, a0, a1, a2, a3, a4, a5, a6]
    funext i
    obtain ⟨b, r, n, rfl⟩ : ∃ (b : Fin 64) (r n : Fin 256), i = ix3 b r n := ⟨i 0, i 1, i 2, eq_ix3 i⟩
    exact Cert.ReferenceIdeal.RefValue.v30_apply _ _ _ _ _ _ _ b r n

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
